-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v184) = v0 c
          ∧ r.2.mem ((c.tc : Thread Cert.ReferenceIdeal.nD Cert.ReferenceIdeal.τ).loc Cert.ReferenceIdeal.main_v183) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8388608x8 : Shape := ⟨2, ![8388608, 8]⟩
abbrev S8388608x1 : Shape := ⟨2, ![8388608, 1]⟩
abbrev S_ : Shape := ⟨0, ![]⟩

class Facts : Prop where
  bcast_S_S8388608x8 : S_.BroadcastsInDim S8388608x8 (![] : Fin 0 → Fin S8388608x8.rank)
  reducesTo_S8388608x8_S_d0_1 : S8388608x8.ReducesTo [0, 1] S_
  h_S_ : 0 < S_.numel
  bcast_S_S8388608x1 : S_.BroadcastsInDim S8388608x1 (![] : Fin 0 → Fin S8388608x1.rank)
  reducesTo_S8388608x1_S_d0_1 : S8388608x1.ReducesTo [0, 1] S_

variable [Facts]

def fn {F : FTy → Type} [FloatOps F] (main_arg0 : FVec F S8388608x8 .f32) (main_arg1 : FVec F S8388608x8 .f32) (main_arg2 : FVec F S8388608x1 .f32) : IVec S_ 1 :=
  let main_v0 : FVec F S8388608x8 .f32 := Host.absf main_arg0
  let main_cst : FVec F S_ .f32 := constant S_ .f32 0x7F800000#32
  let main_v1 : FVec F S8388608x8 .f32 := broadcastInDim S8388608x8 ![] bcast_S_S8388608x8 main_cst
  let main_v2 : IVec S8388608x8 1 := cmpf .olt main_v0 main_v1
  let main_c : IVec S_ 1 := constantI S_ 1 1#1
  let main_v3 : IVec S_ 1 := (fun x v => Host.reduce IntOp.andi x v reducesTo_S8388608x8_S_d0_1 h_S_) main_v2 main_c
  let main_v4 : FVec F S8388608x8 .f32 := Host.absf main_arg1
  let main_cst_0 : FVec F S_ .f32 := constant S_ .f32 0x7F800000#32
  let main_v5 : FVec F S8388608x8 .f32 := broadcastInDim S8388608x8 ![] bcast_S_S8388608x8 main_cst_0
  let main_v6 : IVec S8388608x8 1 := cmpf .olt main_v4 main_v5
  let main_c_1 : IVec S_ 1 := constantI S_ 1 1#1
  let main_v7 : IVec S_ 1 := (fun x v => Host.reduce IntOp.andi x v reducesTo_S8388608x8_S_d0_1 h_S_) main_v6 main_c_1
  let main_v8 : IVec S_ 1 := andi main_v3 main_v7
  let main_v9 : FVec F S8388608x1 .f32 := Host.absf main_arg2
  let main_cst_2 : FVec F S_ .f32 := constant S_ .f32 0x7F800000#32
  let main_v10 : FVec F S8388608x1 .f32 := broadcastInDim S8388608x1 ![] bcast_S_S8388608x1 main_cst_2
  let main_v11 : IVec S8388608x1 1 := cmpf .olt main_v9 main_v10
  let main_c_3 : IVec S_ 1 := constantI S_ 1 1#1
  let main_v12 : IVec S_ 1 := (fun x v => Host.reduce IntOp.andi x v reducesTo_S8388608x1_S_d0_1 h_S_) main_v11 main_c_3
  let main_v13 : IVec S_ 1 := andi main_v8 main_v12
  main_v13
-- ==== Kernel.lean ====
abbrev S8388608x8 : Shape := ⟨2, ![8388608, 8]⟩
abbrev S8388608x1 : Shape := ⟨2, ![8388608, 1]⟩
abbrev S4096x8 : Shape := ⟨2, ![4096, 8]⟩
abbrev S4096x1 : Shape := ⟨2, ![4096, 1]⟩
abbrev S512x8 : Shape := ⟨2, ![512, 8]⟩
abbrev S512x1 : Shape := ⟨2, ![512, 1]⟩

abbrev nBuf : Space → Nat
  | .hbm => 5
  | .vmem => 10
  | .smem => 0
  | _ => 0

abbrev bufTy : (tb : Table) → Fin (tcTables nBuf tb) → BufTy
  | .hbm, ⟨0, _⟩ => ⟨S8388608x8, .f32⟩
  | .hbm, ⟨1, _⟩ => ⟨S8388608x8, .f32⟩
  | .hbm, ⟨2, _⟩ => ⟨S8388608x1, .f32⟩
  | .hbm, ⟨3, _⟩ => ⟨S8388608x8, .f32⟩
  | .hbm, ⟨4, _⟩ => ⟨S8388608x1, .f32⟩
  | .local _ .vmem, ⟨0, _⟩ => ⟨S4096x8, .f32⟩
  | .local _ .vmem, ⟨1, _⟩ => ⟨S4096x8, .f32⟩
  | .local _ .vmem, ⟨2, _⟩ => ⟨S4096x8, .f32⟩
  | .local _ .vmem, ⟨3, _⟩ => ⟨S4096x8, .f32⟩
  | .local _ .vmem, ⟨4, _⟩ => ⟨S4096x1, .f32⟩
  | .local _ .vmem, ⟨5, _⟩ => ⟨S4096x1, .f32⟩
  | .local _ .vmem, ⟨6, _⟩ => ⟨S4096x8, .f32⟩
  | .local _ .vmem, ⟨7, _⟩ => ⟨S4096x8, .f32⟩
  | .local _ .vmem, ⟨8, _⟩ => ⟨S4096x1, .f32⟩
  | .local _ .vmem, ⟨9, _⟩ => ⟨S4096x1, .f32⟩
  | _, _ => ⟨S8388608x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![2048], ![false]⟩

@[reducible] def k0_t1_loop : Scf.Loop 32 :=
  let c0_i32 : BitVec 32 := 0#32
  let c8_i32 : BitVec 32 := 8#32
  let v0 : BitVec 32 := Scalar.addi c0_i32 c8_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg6 : BitVec 32 := Scf.iv c0_i32 c1_i32 k0_t1
  let c512_i32 : BitVec 32 := 512#32
  let v1 : BitVec 32 := Scalar.muli arg6 c512_i32
  v1
def k0_off1 (k0_t1 : Fin k0_t1_loop.trips) : Fin 2 → Nat :=
  let c0_i32 : BitVec 32 := 0#32
  let c1_i32 : BitVec 32 := 1#32
  let arg6 : BitVec 32 := Scf.iv c0_i32 c1_i32 k0_t1
  let c512_i32 : BitVec 32 := 512#32
  let v1 : BitVec 32 := Scalar.muli arg6 c512_i32
  let v2 : BitVec 32 := v1
  let v3 : Index := Scalar.indexCast v2
  let c0 : Index := 0#32
  ![v3.toNat, 0]
def k0_off2 (k0_t1 : Fin k0_t1_loop.trips) : Fin 2 → Nat :=
  let c0_i32 : BitVec 32 := 0#32
  let c1_i32 : BitVec 32 := 1#32
  let arg6 : BitVec 32 := Scf.iv c0_i32 c1_i32 k0_t1
  let c512_i32 : BitVec 32 := 512#32
  let v1 : BitVec 32 := Scalar.muli arg6 c512_i32
  let v2 : BitVec 32 := v1
  let v7 : Index := Scalar.indexCast v2
  let c0_2 : Index := 0#32
  ![v7.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x8 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x8 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  h_S512x8 : 0 < S512x8.numel
  h_S512x1 : 0 < S512x1.numel
  slices_S512x8_o0_7_S512x1 : S512x8.Slices ![0, 7] S512x1
  slices_S512x8_o0_6_S512x1 : S512x8.Slices ![0, 6] S512x1
  slices_S512x8_o0_5_S512x1 : S512x8.Slices ![0, 5] S512x1
  slices_S512x8_o0_4_S512x1 : S512x8.Slices ![0, 4] S512x1
  slices_S512x8_o0_3_S512x1 : S512x8.Slices ![0, 3] S512x1
  slices_S512x8_o0_2_S512x1 : S512x8.Slices ![0, 2] S512x1
  slices_S512x8_o0_1_S512x1 : S512x8.Slices ![0, 1] S512x1
  slices_S512x8_o0_0_S512x1 : S512x8.Slices ![0, 0] S512x1
  concatenates_S512x1_S512x1_S512x1_S512x1_S512x1_S512x1_S512x1_S512x1_S512x8_d1 : Shape.Concatenates [S512x1, S512x1, S512x1, S512x1, S512x1, S512x1, S512x1, S512x1] S512x8 1
  hrank0 : 0 < grid0.rank
  k0_t1_ok : k0_t1_loop.OK
  k0_mult1_dvd : ∀ k0_t1 : Fin k0_t1_loop.trips, 512 ∣ (k0_mult1 k0_t1).toNat
  k0_off1_inb : ∀ k0_t1 : Fin k0_t1_loop.trips, ∀ a, (k0_off1 k0_t1) a + S512x8.size a ≤ S4096x8.size a
  k0_off2_inb : ∀ k0_t1 : Fin k0_t1_loop.trips, ∀ a, (k0_off2 k0_t1) a + S512x1.size a ≤ S4096x1.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x8.size a ≤ S8388608x8.size a
  hwx0_0 : ∀ i : grid0.Coords, EltTy.bits .f32 = 32 ∨ (Rect.block (s := S8388608x8) S4096x8.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x8.size a ≤ S8388608x8.size a
  hwx0_1 : ∀ i : grid0.Coords, EltTy.bits .f32 = 32 ∨ (Rect.block (s := S8388608x8) S4096x8.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x1.size a ≤ S8388608x1.size a
  hwx0_2 : ∀ i : grid0.Coords, EltTy.bits .f32 = 32 ∨ (Rect.block (s := S8388608x1) S4096x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x8.size a ≤ S8388608x8.size a
  hwx0_3 : ∀ i : grid0.Coords, EltTy.bits .f32 = 32 ∨ (Rect.block (s := S8388608x8) S4096x8.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4096x1.size a ≤ S8388608x1.size a
  hwx0_4 : ∀ i : grid0.Coords, EltTy.bits .f32 = 32 ∨ (Rect.block (s := S8388608x1) S4096x1.size (cc0_transform_4 i) (hinb0_4 i)).WholeWords (EltTy.packing .f32)

variable [Facts₀]

abbrev win0_0 : Pipeline.Window sig grid0 :=
  Pipeline.Window.ofSpec (Memref.whole main_arg0) S4096x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x8.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4096x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S4096x8.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S4096x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8388608x8 : Shape := ⟨2, ![8388608, 8]⟩
abbrev S8388608x1 : Shape := ⟨2, ![8388608, 1]⟩
abbrev S_ : Shape := ⟨0, ![]⟩

abbrev nBuf : Space → Nat
  | .hbm => 212
  | .vmem => 0
  | .smem => 0
  | _ => 0

abbrev hbmTy0_0 (i : Nat) : BufTy := match i % 128 with
  | 0 => ⟨S8388608x8, .f32⟩
  | 1 => ⟨S8388608x8, .f32⟩
  | 2 => ⟨S8388608x1, .f32⟩
  | 3 => ⟨S8388608x1, .f32⟩
  | 4 => ⟨S8388608x1, .f32⟩
  | 5 => ⟨S8388608x1, .f32⟩
  | 6 => ⟨S_, .f32⟩
  | 7 => ⟨S8388608x1, .f32⟩
  | 8 => ⟨S8388608x1, .f32⟩
  | 9 => ⟨S8388608x1, .f32⟩
  | 10 => ⟨S8388608x1, .f32⟩
  | 11 => ⟨S8388608x1, .f32⟩
  | 12 => ⟨S_, .f32⟩
  | 13 => ⟨S8388608x1, .f32⟩
  | 14 => ⟨S8388608x1, .f32⟩
  | 15 => ⟨S8388608x1, .f32⟩
  | 16 => ⟨S8388608x1, .f32⟩
  | 17 => ⟨S_, .f32⟩
  | 18 => ⟨S8388608x1, .f32⟩
  | 19 => ⟨S8388608x1, .f32⟩
  | 20 => ⟨S8388608x1, .f32⟩
  | 21 => ⟨S8388608x1, .f32⟩
  | 22 => ⟨S8388608x1, .f32⟩
  | 23 => ⟨S8388608x1, .f32⟩
  | 24 => ⟨S8388608x1, .f32⟩
  | 25 => ⟨S8388608x1, .f32⟩
  | 26 => ⟨S8388608x1, .f32⟩
  | 27 => ⟨S8388608x1, .f32⟩
  | 28 => ⟨S8388608x1, .f32⟩
  | 29 => ⟨S8388608x1, .f32⟩
  | 30 => ⟨S8388608x1, .f32⟩
  | 31 => ⟨S8388608x1, .f32⟩
  | 32 => ⟨S_, .f32⟩
  | 33 => ⟨S8388608x1, .f32⟩
  | 34 => ⟨S8388608x1, .f32⟩
  | 35 => ⟨S8388608x1, .f32⟩
  | 36 => ⟨S8388608x1, .f32⟩
  | 37 => ⟨S8388608x1, .f32⟩
  | 38 => ⟨S_, .f32⟩
  | 39 => ⟨S8388608x1, .f32⟩
  | 40 => ⟨S8388608x1, .f32⟩
  | 41 => ⟨S8388608x1, .f32⟩
  | 42 => ⟨S8388608x1, .f32⟩
  | 43 => ⟨S_, .f32⟩
  | 44 => ⟨S8388608x1, .f32⟩
  | 45 => ⟨S8388608x1, .f32⟩
  | 46 => ⟨S8388608x1, .f32⟩
  | 47 => ⟨S8388608x1, .f32⟩
  | 48 => ⟨S8388608x1, .f32⟩
  | 49 => ⟨S8388608x1, .f32⟩
  | 50 => ⟨S8388608x1, .f32⟩
  | 51 => ⟨S8388608x1, .f32⟩
  | 52 => ⟨S8388608x1, .f32⟩
  | 53 => ⟨S8388608x1, .f32⟩
  | 54 => ⟨S8388608x1, .f32⟩
  | 55 => ⟨S8388608x1, .f32⟩
  | 56 => ⟨S8388608x1, .f32⟩
  | 57 => ⟨S8388608x1, .f32⟩
  | 58 => ⟨S_, .f32⟩
  | 59 => ⟨S8388608x1, .f32⟩
  | 60 => ⟨S8388608x1, .f32⟩
  | 61 => ⟨S8388608x1, .f32⟩
  | 62 => ⟨S8388608x1, .f32⟩
  | 63 => ⟨S8388608x1, .f32⟩
  | 64 => ⟨S_, .f32⟩
  | 65 => ⟨S8388608x1, .f32⟩
  | 66 => ⟨S8388608x1, .f32⟩
  | 67 => ⟨S8388608x1, .f32⟩
  | 68 => ⟨S8388608x1, .f32⟩
  | 69 => ⟨S_, .f32⟩
  | 70 => ⟨S8388608x1, .f32⟩
  | 71 => ⟨S8388608x1, .f32⟩
  | 72 => ⟨S8388608x1, .f32⟩
  | 73 => ⟨S8388608x1, .f32⟩
  | 74 => ⟨S8388608x1, .f32⟩
  | 75 => ⟨S8388608x1, .f32⟩
  | 76 => ⟨S8388608x1, .f32⟩
  | 77 => ⟨S8388608x1, .f32⟩
  | 78 => ⟨S8388608x1, .f32⟩
  | 79 => ⟨S8388608x1, .f32⟩
  | 80 => ⟨S8388608x1, .f32⟩
  | 81 => ⟨S8388608x1, .f32⟩
  | 82 => ⟨S8388608x1, .f32⟩
  | 83 => ⟨S8388608x1, .f32⟩
  | 84 => ⟨S_, .f32⟩
  | 85 => ⟨S8388608x1, .f32⟩
  | 86 => ⟨S8388608x1, .f32⟩
  | 87 => ⟨S8388608x1, .f32⟩
  | 88 => ⟨S8388608x1, .f32⟩
  | 89 => ⟨S8388608x1, .f32⟩
  | 90 => ⟨S_, .f32⟩
  | 91 => ⟨S8388608x1, .f32⟩
  | 92 => ⟨S8388608x1, .f32⟩
  | 93 => ⟨S8388608x1, .f32⟩
  | 94 => ⟨S8388608x1, .f32⟩
  | 95 => ⟨S_, .f32⟩
  | 96 => ⟨S8388608x1, .f32⟩
  | 97 => ⟨S8388608x1, .f32⟩
  | 98 => ⟨S8388608x1, .f32⟩
  | 99 => ⟨S8388608x1, .f32⟩
  | 100 => ⟨S8388608x1, .f32⟩
  | 101 => ⟨S8388608x1, .f32⟩
  | 102 => ⟨S8388608x1, .f32⟩
  | 103 => ⟨S8388608x1, .f32⟩
  | 104 => ⟨S8388608x1, .f32⟩
  | 105 => ⟨S8388608x1, .f32⟩
  | 106 => ⟨S8388608x1, .f32⟩
  | 107 => ⟨S8388608x1, .f32⟩
  | 108 => ⟨S8388608x1, .f32⟩
  | 109 => ⟨S8388608x1, .f32⟩
  | 110 => ⟨S_, .f32⟩
  | 111 => ⟨S8388608x1, .f32⟩
  | 112 => ⟨S8388608x1, .f32⟩
  | 113 => ⟨S8388608x1, .f32⟩
  | 114 => ⟨S8388608x1, .f32⟩
  | 115 => ⟨S8388608x1, .f32⟩
  | 116 => ⟨S_, .f32⟩
  | 117 => ⟨S8388608x1, .f32⟩
  | 118 => ⟨S8388608x1, .f32⟩
  | 119 => ⟨S8388608x1, .f32⟩
  | 120 => ⟨S8388608x1, .f32⟩
  | 121 => ⟨S_, .f32⟩
  | 122 => ⟨S8388608x1, .f32⟩
  | 123 => ⟨S8388608x1, .f32⟩
  | 124 => ⟨S8388608x1, .f32⟩
  | 125 => ⟨S8388608x1, .f32⟩
  | 126 => ⟨S8388608x1, .f32⟩
  | 127 => ⟨S8388608x1, .f32⟩
  | _ => ⟨S8388608x8, .f32⟩

abbrev hbmTy0_1 (i : Nat) : BufTy := match i % 128 with
  | 0 => ⟨S8388608x1, .f32⟩
  | 1 => ⟨S8388608x1, .f32⟩
  | 2 => ⟨S8388608x1, .f32⟩
  | 3 => ⟨S8388608x1, .f32⟩
  | 4 => ⟨S8388608x1, .f32⟩
  | 5 => ⟨S8388608x1, .f32⟩
  | 6 => ⟨S8388608x1, .f32⟩
  | 7 => ⟨S8388608x1, .f32⟩
  | 8 => ⟨S_, .f32⟩
  | 9 => ⟨S8388608x1, .f32⟩
  | 10 => ⟨S8388608x1, .f32⟩
  | 11 => ⟨S8388608x1, .f32⟩
  | 12 => ⟨S8388608x1, .f32⟩
  | 13 => ⟨S8388608x1, .f32⟩
  | 14 => ⟨S_, .f32⟩
  | 15 => ⟨S8388608x1, .f32⟩
  | 16 => ⟨S8388608x1, .f32⟩
  | 17 => ⟨S8388608x1, .f32⟩
  | 18 => ⟨S8388608x1, .f32⟩
  | 19 => ⟨S_, .f32⟩
  | 20 => ⟨S8388608x1, .f32⟩
  | 21 => ⟨S8388608x1, .f32⟩
  | 22 => ⟨S8388608x1, .f32⟩
  | 23 => ⟨S8388608x1, .f32⟩
  | 24 => ⟨S8388608x1, .f32⟩
  | 25 => ⟨S8388608x1, .f32⟩
  | 26 => ⟨S8388608x1, .f32⟩
  | 27 => ⟨S8388608x1, .f32⟩
  | 28 => ⟨S8388608x1, .f32⟩
  | 29 => ⟨S8388608x1, .f32⟩
  | 30 => ⟨S8388608x1, .f32⟩
  | 31 => ⟨S8388608x1, .f32⟩
  | 32 => ⟨S8388608x1, .f32⟩
  | 33 => ⟨S8388608x1, .f32⟩
  | 34 => ⟨S_, .f32⟩
  | 35 => ⟨S8388608x1, .f32⟩
  | 36 => ⟨S8388608x1, .f32⟩
  | 37 => ⟨S8388608x1, .f32⟩
  | 38 => ⟨S8388608x1, .f32⟩
  | 39 => ⟨S8388608x1, .f32⟩
  | 40 => ⟨S_, .f32⟩
  | 41 => ⟨S8388608x1, .f32⟩
  | 42 => ⟨S8388608x1, .f32⟩
  | 43 => ⟨S8388608x1, .f32⟩
  | 44 => ⟨S8388608x1, .f32⟩
  | 45 => ⟨S_, .f32⟩
  | 46 => ⟨S8388608x1, .f32⟩
  | 47 => ⟨S8388608x1, .f32⟩
  | 48 => ⟨S8388608x1, .f32⟩
  | 49 => ⟨S8388608x1, .f32⟩
  | 50 => ⟨S8388608x1, .f32⟩
  | 51 => ⟨S8388608x1, .f32⟩
  | 52 => ⟨S8388608x1, .f32⟩
  | 53 => ⟨S8388608x1, .f32⟩
  | 54 => ⟨S8388608x1, .f32⟩
  | 55 => ⟨S8388608x1, .f32⟩
  | 56 => ⟨S8388608x1, .f32⟩
  | 57 => ⟨S8388608x1, .f32⟩
  | 58 => ⟨S8388608x1, .f32⟩
  | 59 => ⟨S8388608x1, .f32⟩
  | 60 => ⟨S_, .f32⟩
  | 61 => ⟨S8388608x1, .f32⟩
  | 62 => ⟨S8388608x1, .f32⟩
  | 63 => ⟨S8388608x1, .f32⟩
  | 64 => ⟨S8388608x1, .f32⟩
  | 65 => ⟨S8388608x1, .f32⟩
  | 66 => ⟨S_, .f32⟩
  | 67 => ⟨S8388608x1, .f32⟩
  | 68 => ⟨S8388608x1, .f32⟩
  | 69 => ⟨S8388608x1, .f32⟩
  | 70 => ⟨S8388608x1, .f32⟩
  | 71 => ⟨S_, .f32⟩
  | 72 => ⟨S8388608x1, .f32⟩
  | 73 => ⟨S8388608x1, .f32⟩
  | 74 => ⟨S8388608x1, .f32⟩
  | 75 => ⟨S8388608x1, .f32⟩
  | 76 => ⟨S8388608x1, .f32⟩
  | 77 => ⟨S8388608x1, .f32⟩
  | 78 => ⟨S8388608x1, .f32⟩
  | 79 => ⟨S8388608x1, .f32⟩
  | 80 => ⟨S8388608x1, .f32⟩
  | 81 => ⟨S8388608x1, .f32⟩
  | 82 => ⟨S8388608x1, .f32⟩
  | 83 => ⟨S8388608x8, .f32⟩
  | _ => ⟨S8388608x8, .f32⟩

abbrev hbmTy (i : Nat) : BufTy := match i / 128 with
  | 0 => hbmTy0_0 i
  | 1 => hbmTy0_1 i
  | _ => ⟨S8388608x8, .f32⟩

abbrev bufTy : (tb : Table) → Fin (tcTables nBuf tb) → BufTy
  | .hbm, ⟨i, _⟩ => hbmTy i
  | _, _ => ⟨S8388608x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_cst_2 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_cst_3 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_cst_4 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_cst_5 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_cst_6 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_cst_7 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_cst_8 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_cst_9 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_cst_10 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_cst_11 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_cst_12 : Ref sig .tc := ⟨.hbm, 116, rfl⟩
abbrev main_v100 : Ref sig .tc := ⟨.hbm, 117, rfl⟩
abbrev main_v101 : Ref sig .tc := ⟨.hbm, 118, rfl⟩
abbrev main_v102 : Ref sig .tc := ⟨.hbm, 119, rfl⟩
abbrev main_v103 : Ref sig .tc := ⟨.hbm, 120, rfl⟩
abbrev main_cst_13 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev main_v108 : Ref sig .tc := ⟨.hbm, 126, rfl⟩
abbrev main_v109 : Ref sig .tc := ⟨.hbm, 127, rfl⟩
abbrev main_v110 : Ref sig .tc := ⟨.hbm, 128, rfl⟩
abbrev main_v111 : Ref sig .tc := ⟨.hbm, 129, rfl⟩
abbrev main_v112 : Ref sig .tc := ⟨.hbm, 130, rfl⟩
abbrev main_v113 : Ref sig .tc := ⟨.hbm, 131, rfl⟩
abbrev main_v114 : Ref sig .tc := ⟨.hbm, 132, rfl⟩
abbrev main_v115 : Ref sig .tc := ⟨.hbm, 133, rfl⟩
abbrev main_v116 : Ref sig .tc := ⟨.hbm, 134, rfl⟩
abbrev main_v117 : Ref sig .tc := ⟨.hbm, 135, rfl⟩
abbrev main_cst_14 : Ref sig .tc := ⟨.hbm, 136, rfl⟩
abbrev main_v118 : Ref sig .tc := ⟨.hbm, 137, rfl⟩
abbrev main_v119 : Ref sig .tc := ⟨.hbm, 138, rfl⟩
abbrev main_v120 : Ref sig .tc := ⟨.hbm, 139, rfl⟩
abbrev main_v121 : Ref sig .tc := ⟨.hbm, 140, rfl⟩
abbrev main_v122 : Ref sig .tc := ⟨.hbm, 141, rfl⟩
abbrev main_cst_15 : Ref sig .tc := ⟨.hbm, 142, rfl⟩
abbrev main_v123 : Ref sig .tc := ⟨.hbm, 143, rfl⟩
abbrev main_v124 : Ref sig .tc := ⟨.hbm, 144, rfl⟩
abbrev main_v125 : Ref sig .tc := ⟨.hbm, 145, rfl⟩
abbrev main_v126 : Ref sig .tc := ⟨.hbm, 146, rfl⟩
abbrev main_cst_16 : Ref sig .tc := ⟨.hbm, 147, rfl⟩
abbrev main_v127 : Ref sig .tc := ⟨.hbm, 148, rfl⟩
abbrev main_v128 : Ref sig .tc := ⟨.hbm, 149, rfl⟩
abbrev main_v129 : Ref sig .tc := ⟨.hbm, 150, rfl⟩
abbrev main_v130 : Ref sig .tc := ⟨.hbm, 151, rfl⟩
abbrev main_v131 : Ref sig .tc := ⟨.hbm, 152, rfl⟩
abbrev main_v132 : Ref sig .tc := ⟨.hbm, 153, rfl⟩
abbrev main_v133 : Ref sig .tc := ⟨.hbm, 154, rfl⟩
abbrev main_v134 : Ref sig .tc := ⟨.hbm, 155, rfl⟩
abbrev main_v135 : Ref sig .tc := ⟨.hbm, 156, rfl⟩
abbrev main_v136 : Ref sig .tc := ⟨.hbm, 157, rfl⟩
abbrev main_v137 : Ref sig .tc := ⟨.hbm, 158, rfl⟩
abbrev main_v138 : Ref sig .tc := ⟨.hbm, 159, rfl⟩
abbrev main_v139 : Ref sig .tc := ⟨.hbm, 160, rfl⟩
abbrev main_v140 : Ref sig .tc := ⟨.hbm, 161, rfl⟩
abbrev main_cst_17 : Ref sig .tc := ⟨.hbm, 162, rfl⟩
abbrev main_v141 : Ref sig .tc := ⟨.hbm, 163, rfl⟩
abbrev main_v142 : Ref sig .tc := ⟨.hbm, 164, rfl⟩
abbrev main_v143 : Ref sig .tc := ⟨.hbm, 165, rfl⟩
abbrev main_v144 : Ref sig .tc := ⟨.hbm, 166, rfl⟩
abbrev main_v145 : Ref sig .tc := ⟨.hbm, 167, rfl⟩
abbrev main_cst_18 : Ref sig .tc := ⟨.hbm, 168, rfl⟩
abbrev main_v146 : Ref sig .tc := ⟨.hbm, 169, rfl⟩
abbrev main_v147 : Ref sig .tc := ⟨.hbm, 170, rfl⟩
abbrev main_v148 : Ref sig .tc := ⟨.hbm, 171, rfl⟩
abbrev main_v149 : Ref sig .tc := ⟨.hbm, 172, rfl⟩
abbrev main_cst_19 : Ref sig .tc := ⟨.hbm, 173, rfl⟩
abbrev main_v150 : Ref sig .tc := ⟨.hbm, 174, rfl⟩
abbrev main_v151 : Ref sig .tc := ⟨.hbm, 175, rfl⟩
abbrev main_v152 : Ref sig .tc := ⟨.hbm, 176, rfl⟩
abbrev main_v153 : Ref sig .tc := ⟨.hbm, 177, rfl⟩
abbrev main_v154 : Ref sig .tc := ⟨.hbm, 178, rfl⟩
abbrev main_v155 : Ref sig .tc := ⟨.hbm, 179, rfl⟩
abbrev main_v156 : Ref sig .tc := ⟨.hbm, 180, rfl⟩
abbrev main_v157 : Ref sig .tc := ⟨.hbm, 181, rfl⟩
abbrev main_v158 : Ref sig .tc := ⟨.hbm, 182, rfl⟩
abbrev main_v159 : Ref sig .tc := ⟨.hbm, 183, rfl⟩
abbrev main_v160 : Ref sig .tc := ⟨.hbm, 184, rfl⟩
abbrev main_v161 : Ref sig .tc := ⟨.hbm, 185, rfl⟩
abbrev main_v162 : Ref sig .tc := ⟨.hbm, 186, rfl⟩
abbrev main_v163 : Ref sig .tc := ⟨.hbm, 187, rfl⟩
abbrev main_cst_20 : Ref sig .tc := ⟨.hbm, 188, rfl⟩
abbrev main_v164 : Ref sig .tc := ⟨.hbm, 189, rfl⟩
abbrev main_v165 : Ref sig .tc := ⟨.hbm, 190, rfl⟩
abbrev main_v166 : Ref sig .tc := ⟨.hbm, 191, rfl⟩
abbrev main_v167 : Ref sig .tc := ⟨.hbm, 192, rfl⟩
abbrev main_v168 : Ref sig .tc := ⟨.hbm, 193, rfl⟩
abbrev main_cst_21 : Ref sig .tc := ⟨.hbm, 194, rfl⟩
abbrev main_v169 : Ref sig .tc := ⟨.hbm, 195, rfl⟩
abbrev main_v170 : Ref sig .tc := ⟨.hbm, 196, rfl⟩
abbrev main_v171 : Ref sig .tc := ⟨.hbm, 197, rfl⟩
abbrev main_v172 : Ref sig .tc := ⟨.hbm, 198, rfl⟩
abbrev main_cst_22 : Ref sig .tc := ⟨.hbm, 199, rfl⟩
abbrev main_v173 : Ref sig .tc := ⟨.hbm, 200, rfl⟩
abbrev main_v174 : Ref sig .tc := ⟨.hbm, 201, rfl⟩
abbrev main_v175 : Ref sig .tc := ⟨.hbm, 202, rfl⟩
abbrev main_v176 : Ref sig .tc := ⟨.hbm, 203, rfl⟩
abbrev main_v177 : Ref sig .tc := ⟨.hbm, 204, rfl⟩
abbrev main_v178 : Ref sig .tc := ⟨.hbm, 205, rfl⟩
abbrev main_v179 : Ref sig .tc := ⟨.hbm, 206, rfl⟩
abbrev main_v180 : Ref sig .tc := ⟨.hbm, 207, rfl⟩
abbrev main_v181 : Ref sig .tc := ⟨.hbm, 208, rfl⟩
abbrev main_v182 : Ref sig .tc := ⟨.hbm, 209, rfl⟩
abbrev main_v183 : Ref sig .tc := ⟨.hbm, 210, rfl⟩
abbrev main_v184 : Ref sig .tc := ⟨.hbm, 211, rfl⟩

abbrev nD : Nat := 1
abbrev τ : Topo := Topo.v7x

variable {F : FTy → Type} [FloatOps F]

class Facts₀ : Prop where
  slices_S8388608x8_S8388608x1_0_7 : S8388608x8.Slices ![0, 7] S8388608x1
  bcast_S_S8388608x1 : S_.BroadcastsInDim S8388608x1 (![] : Fin 0 → Fin S8388608x1.rank)
  slices_S8388608x8_S8388608x1_0_6 : S8388608x8.Slices ![0, 6] S8388608x1
  slices_S8388608x8_S8388608x1_0_5 : S8388608x8.Slices ![0, 5] S8388608x1
  slices_S8388608x8_S8388608x1_0_4 : S8388608x8.Slices ![0, 4] S8388608x1
  slices_S8388608x8_S8388608x1_0_3 : S8388608x8.Slices ![0, 3] S8388608x1
  slices_S8388608x8_S8388608x1_0_2 : S8388608x8.Slices ![0, 2] S8388608x1
  slices_S8388608x8_S8388608x1_0_1 : S8388608x8.Slices ![0, 1] S8388608x1
  slices_S8388608x8_S8388608x1_0_0 : S8388608x8.Slices ![0, 0] S8388608x1
  concatenates_S8388608x1_S8388608x1_S8388608x1_S8388608x1_S8388608x1_S8388608x1_S8388608x1_S8388608x1_S8388608x8_d1 : Shape.Concatenates [S8388608x1, S8388608x1, S8388608x1, S8388608x1, S8388608x1, S8388608x1, S8388608x1, S8388608x1] S8388608x8 1

variable [Facts₀]

class Facts : Prop extends Facts₀ where

variable [Facts]
-- ==== Proof.BitStage.lean ====
/-
  A bit-serial ripple-borrow subtractor on 0/1 "spike" values, read on the extended reals.

  For two bits a, b and an incoming borrow c, with
      x ⊕ y := (x + y) − (2·x)·y        (exclusive or of 0/1 values)
      x ∨ y := (x + y) − x·y            (or of 0/1 values)
  one stage produces
      the difference bit   d  = (a ⊕ b) ⊕ c
      the outgoing borrow  c' = (((1 − a)·b) ∨ ((1 − a)·c)) ∨ (b·c).
  A row holds eight bits, column 7 the least significant. The borrow enters at column 7 and ripples to column 0:
  column k's stage takes the borrow that column k+1's stage produced, and the row's final borrow is the one column 0
  produces. Nothing here assumes the values are 0 or 1: the formulas are read as they stand, on any extended reals,
  with the association and the order of the factors fixed as written (no law of arithmetic is used anywhere).

  The literals 2 and 1 are kept as the words they are printed as; they are never evaluated.
-/
import Idealize.ShloMosaic.PureOps.Ideal
import Idealize.ShloMosaic.Lib.ValueIdx

noncomputable section

namespace Cert.Subtractor

open Idealize.ShloMosaic Idealize.ShloMosaic.ValueIdx

/-- The literal 2, as its f32 word read on the extended reals. -/
abbrev two : EReal := Ideal.ofBits .f32 0x40000000#32
/-- The literal 1, as its f32 word read on the extended reals. -/
abbrev one : EReal := Ideal.ofBits .f32 0x3F800000#32

/-- x ⊕ y = (x + y) − (2·x)·y. -/
def xr (x y : EReal) : EReal := (x + y) - (two * x) * y
/-- x ∨ y = (x + y) − x·y. -/
def orr (x y : EReal) : EReal := (x + y) - x * y
/-- One stage's difference bit: (a ⊕ b) ⊕ c. -/
def dif (a b c : EReal) : EReal := xr (xr a b) c
/-- One stage's outgoing borrow: (((1 − a)·b) ∨ ((1 − a)·c)) ∨ (b·c). -/
def bor (a b c : EReal) : EReal := orr (orr ((one - a) * b) ((one - a) * c)) (b * c)

/-! ## The eight stages of a row, least significant column (7) first -/

/-- The borrow leaving column 7. -/
def bw7 (a b : Fin 8 → EReal) (c : EReal) : EReal := bor (a 7) (b 7) c
/-- The borrow leaving column 6. -/
def bw6 (a b : Fin 8 → EReal) (c : EReal) : EReal := bor (a 6) (b 6) (bw7 a b c)
/-- The borrow leaving column 5. -/
def bw5 (a b : Fin 8 → EReal) (c : EReal) : EReal := bor (a 5) (b 5) (bw6 a b c)
/-- The borrow leaving column 4. -/
def bw4 (a b : Fin 8 → EReal) (c : EReal) : EReal := bor (a 4) (b 4) (bw5 a b c)
/-- The borrow leaving column 3. -/
def bw3 (a b : Fin 8 → EReal) (c : EReal) : EReal := bor (a 3) (b 3) (bw4 a b c)
/-- The borrow leaving column 2. -/
def bw2 (a b : Fin 8 → EReal) (c : EReal) : EReal := bor (a 2) (b 2) (bw3 a b c)
/-- The borrow leaving column 1. -/
def bw1 (a b : Fin 8 → EReal) (c : EReal) : EReal := bor (a 1) (b 1) (bw2 a b c)
/-- The borrow leaving column 0: the row's final borrow. -/
def bw0 (a b : Fin 8 → EReal) (c : EReal) : EReal := bor (a 0) (b 0) (bw1 a b c)

/-- The difference bit of column k: the stage's difference on the borrow that column k+1 left (the row's incoming borrow
    for column 7). -/
def diffBit (a b : Fin 8 → EReal) (c : EReal) : Fin 8 → EReal
  | 0 => dif (a 0) (b 0) (bw1 a b c)
  | 1 => dif (a 1) (b 1) (bw2 a b c)
  | 2 => dif (a 2) (b 2) (bw3 a b c)
  | 3 => dif (a 3) (b 3) (bw4 a b c)
  | 4 => dif (a 4) (b 4) (bw5 a b c)
  | 5 => dif (a 5) (b 5) (bw6 a b c)
  | 6 => dif (a 6) (b 6) (bw7 a b c)
  | 7 => dif (a 7) (b 7) c

/-! ## Arrays of rows -/

/-- Row r of an array of N rows of eight columns. -/
def rowOf (N : ℕ) (X : (⟨2, ![N, 8]⟩ : Shape).Idx → EReal) (r : Fin N) : Fin 8 → EReal := fun k => X (ix2 r k)

/-- The incoming borrow of row r: the one column of an array of N rows. -/
def colOf (N : ℕ) (X : (⟨2, ![N, 1]⟩ : Shape).Idx → EReal) (r : Fin N) : EReal := X (ix2 r (0 : Fin 1))

/-- The difference bits of every row: entry (r, k) is column k's difference bit of row r of A and B with the incoming
    borrow Bin r. -/
def diffsOf (N : ℕ) (A B : (⟨2, ![N, 8]⟩ : Shape).Idx → EReal) (Bin : (⟨2, ![N, 1]⟩ : Shape).Idx → EReal) :
    (⟨2, ![N, 8]⟩ : Shape).Idx → EReal :=
  fun i => diffBit (rowOf N A (i 0)) (rowOf N B (i 0)) (colOf N Bin (i 0)) (i 1)

/-- The final borrow of every row. -/
def borrowOf (N : ℕ) (A B : (⟨2, ![N, 8]⟩ : Shape).Idx → EReal) (Bin : (⟨2, ![N, 1]⟩ : Shape).Idx → EReal) :
    (⟨2, ![N, 1]⟩ : Shape).Idx → EReal :=
  fun i => bw0 (rowOf N A (i 0)) (rowOf N B (i 0)) (colOf N Bin (i 0))

end Cert.Subtractor

end
-- ==== Proof.LibColumnReads.lean ====
/-
  Arrays of N rows read one column at a time.

  Two layout operations, each read at an index given by its coordinates (row r, column k):
    * the unit-stride slice [0:N, k:k+1] of an [N, K] array is the array's column k, kept as an [N, 1] array:
      its entry (r, 0) is the array's entry (r, k);
    * the concatenation along axis 1 of eight [N, 1] arrays is the [N, 8] array whose column k is the k-th of them:
      its entry (r, k) is the k-th array's entry (r, 0).
  Both hold for any element type: no arithmetic is involved.
-/
import Idealize.ShloMosaic.Lib.Pipeline.Value
import Idealize.ShloMosaic.Lib.ValueIdx

noncomputable section

namespace Cert.ColumnReads

open Idealize.ShloMosaic Idealize.ShloMosaic.ValueIdx

variable {α : Type}

/-- The slice [0:N, k:k+1] of an [N, K] array, read at (r, 0), is the array at (r, k). The offsets are given as they are
    printed (`off`), with what they are on each axis (`h0`, `h1`). -/
theorem slice_col (N K : ℕ) (x : (⟨2, ![N, K]⟩ : Shape).Idx → α) (off : Fin 2 → ℕ) (k : Fin K)
    (h0 : off 0 = 0) (h1 : off 1 = k.val)
    (h : (⟨2, ![N, K]⟩ : Shape).Slices off ⟨2, ![N, 1]⟩) (r : Fin N) :
    extractStridedSlice (⟨2, ![N, 1]⟩ : Shape) off x h (ix2 r (0 : Fin 1)) = x (ix2 r k) :=
  extractStridedSlice_apply off x h (ix2 r (0 : Fin 1)) (ix2 r k) fun a => by
    match a with
    | ⟨0, _⟩ => show r.val = off 0 + r.val; rw [h0, Nat.zero_add]
    | ⟨1, _⟩ => show k.val = off 1 + 0; rw [h1, Nat.add_zero]

/-- The k-th of eight. -/
def pick8 {β : Type} (u0 u1 u2 u3 u4 u5 u6 u7 : β) : Fin 8 → β
  | 0 => u0 | 1 => u1 | 2 => u2 | 3 => u3 | 4 => u4 | 5 => u5 | 6 => u6 | 7 => u7

/-- The eight [N, 1] arrays, each paired with its shape, in the order a concatenation takes them. -/
abbrev cols8 (N : ℕ) (u0 u1 u2 u3 u4 u5 u6 u7 : (⟨2, ![N, 1]⟩ : Shape).Idx → α) : List ((s : Shape) × (s.Idx → α)) :=
  [⟨⟨2, ![N, 1]⟩, u0⟩, ⟨⟨2, ![N, 1]⟩, u1⟩, ⟨⟨2, ![N, 1]⟩, u2⟩, ⟨⟨2, ![N, 1]⟩, u3⟩,
   ⟨⟨2, ![N, 1]⟩, u4⟩, ⟨⟨2, ![N, 1]⟩, u5⟩, ⟨⟨2, ![N, 1]⟩, u6⟩, ⟨⟨2, ![N, 1]⟩, u7⟩]

/-- Off the concatenation axis an entry keeps its row (axis 0 is the only other axis). -/
private theorem row_kept (N : ℕ) (r : Fin N) (k : Fin 8) (b : Fin 2)
    (hb : b.cast (rfl : (⟨2, ![N, 1]⟩ : Shape).rank = (⟨2, ![N, 8]⟩ : Shape).rank) ≠ (1 : Fin (⟨2, ![N, 8]⟩ : Shape).rank)) :
    ((ix2 r (0 : Fin 1) : (⟨2, ![N, 1]⟩ : Shape).Idx) b).val
      = ((ix2 r k : (⟨2, ![N, 8]⟩ : Shape).Idx) (b.cast rfl)).val := by
  match b, hb with
  | ⟨0, _⟩, _ => rfl
  | ⟨1, _⟩, hb => exact absurd rfl hb

/-- The concatenation along axis 1 of eight [N, 1] arrays, read at (r, k), is the k-th of them at (r, 0): the piece whose
    one column is column k. -/
theorem concat8_apply (N : ℕ) (u0 u1 u2 u3 u4 u5 u6 u7 : (⟨2, ![N, 1]⟩ : Shape).Idx → α)
    (h : Shape.Concatenates ((cols8 N u0 u1 u2 u3 u4 u5 u6 u7).map (·.1)) ⟨2, ![N, 8]⟩ 1)
    (r : Fin N) (k : Fin 8) :
    concatenate (⟨2, ![N, 8]⟩ : Shape) 1 (cols8 N u0 u1 u2 u3 u4 u5 u6 u7) h (ix2 r k)
      = pick8 u0 u1 u2 u3 u4 u5 u6 u7 k (ix2 r (0 : Fin 1)) := by
  match k with
  | 0 =>
    exact concatenate_apply_piece (1 : Fin (⟨2, ![N, 8]⟩ : Shape).rank) _ h (ix2 r 0) 0 (by show 0 < 8; decide)
            ⟨2, ![N, 1]⟩ u0 rfl rfl 0 rfl (ix2 r (0 : Fin 1)) (row_kept N r 0) rfl
  | 1 =>
    exact concatenate_apply_piece (1 : Fin (⟨2, ![N, 8]⟩ : Shape).rank) _ h (ix2 r 1) 1 (by show 1 < 8; decide)
            ⟨2, ![N, 1]⟩ u1 rfl rfl 1 rfl (ix2 r (0 : Fin 1)) (row_kept N r 1) rfl
  | 2 =>
    exact concatenate_apply_piece (1 : Fin (⟨2, ![N, 8]⟩ : Shape).rank) _ h (ix2 r 2) 2 (by show 2 < 8; decide)
            ⟨2, ![N, 1]⟩ u2 rfl rfl 2 rfl (ix2 r (0 : Fin 1)) (row_kept N r 2) rfl
  | 3 =>
    exact concatenate_apply_piece (1 : Fin (⟨2, ![N, 8]⟩ : Shape).rank) _ h (ix2 r 3) 3 (by show 3 < 8; decide)
            ⟨2, ![N, 1]⟩ u3 rfl rfl 3 rfl (ix2 r (0 : Fin 1)) (row_kept N r 3) rfl
  | 4 =>
    exact concatenate_apply_piece (1 : Fin (⟨2, ![N, 8]⟩ : Shape).rank) _ h (ix2 r 4) 4 (by show 4 < 8; decide)
            ⟨2, ![N, 1]⟩ u4 rfl rfl 4 rfl (ix2 r (0 : Fin 1)) (row_kept N r 4) rfl
  | 5 =>
    exact concatenate_apply_piece (1 : Fin (⟨2, ![N, 8]⟩ : Shape).rank) _ h (ix2 r 5) 5 (by show 5 < 8; decide)
            ⟨2, ![N, 1]⟩ u5 rfl rfl 5 rfl (ix2 r (0 : Fin 1)) (row_kept N r 5) rfl
  | 6 =>
    exact concatenate_apply_piece (1 : Fin (⟨2, ![N, 8]⟩ : Shape).rank) _ h (ix2 r 6) 6 (by show 6 < 8; decide)
            ⟨2, ![N, 1]⟩ u6 rfl rfl 6 rfl (ix2 r (0 : Fin 1)) (row_kept N r 6) rfl
  | 7 =>
    exact concatenate_apply_piece (1 : Fin (⟨2, ![N, 8]⟩ : Shape).rank) _ h (ix2 r 7) 7 (by show 7 < 8; decide)
            ⟨2, ![N, 1]⟩ u7 rfl rfl 7 rfl (ix2 r (0 : Fin 1)) (row_kept N r 7) rfl

end Cert.ColumnReads

end
-- ==== Proof.ChunkValue.lean ====
/-
  One 512-row chunk of the kernel's body, read row by row.

  A trip of the body's loop loads a 512-row chunk of A, of B and of the incoming borrows, and stores two values: the
  chunk's eight difference columns (a concatenation of eight one-column vectors) and its final borrow column. Both are
  built from pointwise operations on columns of the loaded chunks, so row r of each depends only on row r of the three
  loads — and, read there, every intermediate vector is one stage of the ripple-borrow subtractor of BitStage:
  the column slices are the bits a_k, b_k; the vectors the stages hand on are the borrows leaving columns 7, 6, …, 0;
  the eight concatenated columns are the difference bits. Each lemma below reads ONE of the body's named intermediate
  vectors at row r in terms of the vectors it is built from; the last two put them together.
  No law of arithmetic is used: at an index the body's operations are the specification's, in the same order.
-/
import proofs.«136779_j23407571764121_2_alg».proof.Proof.Gen.KernelIdeal.Skeleton
import proofs.«136779_j23407571764121_2_alg».proof.Proof.BitStage
import proofs.«136779_j23407571764121_2_alg».proof.Proof.LibColumnReads
import Idealize.ShloMosaic.Lib.ValueIdx

noncomputable section

namespace Cert.KernelIdeal.Chunk

open Cert.KernelIdeal Cert.KernelIdeal.Gen Idealize.ShloMosaic Idealize.ShloMosaic.ValueIdx
open Cert.Subtractor Cert.ColumnReads

/-! ## The vectors the stages hand on, named as the body composes them -/

section Names
variable (v4 v6 : Vec Ideal S512x8 .f32) (v8 : Vec Ideal S512x1 .f32)

/-- The borrow column leaving column 7. -/
def B7 : FVec Ideal S512x1 .f32 := k0_pay9 v4 v6 v8
/-- The borrow column leaving column 6. -/
def B6 : FVec Ideal S512x1 .f32 := k0_pay18 (B7 v4 v6 v8) (k0_pay11 v6) (k0_pay16 v4 v6 v8) (k0_pay17 v4 v6 v8)
/-- The borrow column leaving column 5. -/
def B5 : FVec Ideal S512x1 .f32 := k0_pay22 v4 v6 (B7 v4 v6 v8) (k0_pay11 v6) (k0_pay16 v4 v6 v8) (k0_pay17 v4 v6 v8)
/-- The borrow column leaving column 4. -/
def B4 : FVec Ideal S512x1 .f32 := k0_pay26 v4 v6 (B7 v4 v6 v8) (k0_pay11 v6) (k0_pay16 v4 v6 v8) (k0_pay17 v4 v6 v8)
/-- The borrow column leaving column 3. -/
def B3 : FVec Ideal S512x1 .f32 := k0_pay31 (B4 v4 v6 v8) (k0_pay27 v4) (k0_pay28 v6)
/-- The borrow column leaving column 2. -/
def B2 : FVec Ideal S512x1 .f32 := k0_pay35 v4 v6 (B4 v4 v6 v8) (k0_pay27 v4) (k0_pay28 v6)
/-- The borrow column leaving column 1. -/
def B1 : FVec Ideal S512x1 .f32 := k0_pay1 (B2 v4 v6 v8) (k0_pay36 v4) (k0_pay37 v6)

/-- The value a trip stores into the difference block: the eight difference columns side by side. -/
def chunkDiffs : FVec Ideal S512x8 .f32 :=
  k0_pay5 v4 v6 (k0_pay8 v4 v6 v8) (k0_pay12 v4 v6 v8)
    (k0_pay21 v4 v6 (B7 v4 v6 v8) (k0_pay11 v6) (k0_pay16 v4 v6 v8) (k0_pay17 v4 v6 v8))
    (k0_pay25 v4 v6 (B7 v4 v6 v8) (k0_pay11 v6) (k0_pay16 v4 v6 v8) (k0_pay17 v4 v6 v8))
    (k0_pay30 (B4 v4 v6 v8) (k0_pay27 v4) (k0_pay28 v6) (k0_pay29 v4 v6))
    (k0_pay34 v4 v6 (B4 v4 v6 v8) (k0_pay27 v4) (k0_pay28 v6))
    (B2 v4 v6 v8) (k0_pay36 v4) (k0_pay37 v6) (k0_pay38 v4 v6)
    (k0_pay39 v4 v6 (B4 v4 v6 v8) (k0_pay27 v4) (k0_pay28 v6)) k0_pay40

/-- The value a trip stores into the borrow block: the borrow column leaving column 0. -/
def chunkBorrow : FVec Ideal S512x1 .f32 :=
  k0_pay4 v4 v6 (B2 v4 v6 v8) (k0_pay36 v4) (k0_pay37 v6)

end Names

/-! ## The column slices are the bits -/

section Bits
variable (x : Vec Ideal S512x8 .f32) (r : Fin 512)

theorem pay2_at : k0_pay2 x (ix2 r (0 : Fin 1)) = rowOf 512 x r 0 := slice_col 512 8 x ![0, 0] 0 rfl rfl Facts₀.slices_S512x8_o0_0_S512x1 r
theorem pay3_at : k0_pay3 x (ix2 r (0 : Fin 1)) = rowOf 512 x r 0 := slice_col 512 8 x ![0, 0] 0 rfl rfl Facts₀.slices_S512x8_o0_0_S512x1 r
theorem pay36_at : k0_pay36 x (ix2 r (0 : Fin 1)) = rowOf 512 x r 1 := slice_col 512 8 x ![0, 1] 1 rfl rfl Facts₀.slices_S512x8_o0_1_S512x1 r
theorem pay37_at : k0_pay37 x (ix2 r (0 : Fin 1)) = rowOf 512 x r 1 := slice_col 512 8 x ![0, 1] 1 rfl rfl Facts₀.slices_S512x8_o0_1_S512x1 r
theorem pay32_at : k0_pay32 x (ix2 r (0 : Fin 1)) = rowOf 512 x r 2 := slice_col 512 8 x ![0, 2] 2 rfl rfl Facts₀.slices_S512x8_o0_2_S512x1 r
theorem pay33_at : k0_pay33 x (ix2 r (0 : Fin 1)) = rowOf 512 x r 2 := slice_col 512 8 x ![0, 2] 2 rfl rfl Facts₀.slices_S512x8_o0_2_S512x1 r
theorem pay27_at : k0_pay27 x (ix2 r (0 : Fin 1)) = rowOf 512 x r 3 := slice_col 512 8 x ![0, 3] 3 rfl rfl Facts₀.slices_S512x8_o0_3_S512x1 r
theorem pay28_at : k0_pay28 x (ix2 r (0 : Fin 1)) = rowOf 512 x r 3 := slice_col 512 8 x ![0, 3] 3 rfl rfl Facts₀.slices_S512x8_o0_3_S512x1 r
theorem pay23_at : k0_pay23 x (ix2 r (0 : Fin 1)) = rowOf 512 x r 4 := slice_col 512 8 x ![0, 4] 4 rfl rfl Facts₀.slices_S512x8_o0_4_S512x1 r
theorem pay24_at : k0_pay24 x (ix2 r (0 : Fin 1)) = rowOf 512 x r 4 := slice_col 512 8 x ![0, 4] 4 rfl rfl Facts₀.slices_S512x8_o0_4_S512x1 r
theorem pay19_at : k0_pay19 x (ix2 r (0 : Fin 1)) = rowOf 512 x r 5 := slice_col 512 8 x ![0, 5] 5 rfl rfl Facts₀.slices_S512x8_o0_5_S512x1 r
theorem pay20_at : k0_pay20 x (ix2 r (0 : Fin 1)) = rowOf 512 x r 5 := slice_col 512 8 x ![0, 5] 5 rfl rfl Facts₀.slices_S512x8_o0_5_S512x1 r
theorem pay10_at : k0_pay10 x (ix2 r (0 : Fin 1)) = rowOf 512 x r 6 := slice_col 512 8 x ![0, 6] 6 rfl rfl Facts₀.slices_S512x8_o0_6_S512x1 r
theorem pay11_at : k0_pay11 x (ix2 r (0 : Fin 1)) = rowOf 512 x r 6 := slice_col 512 8 x ![0, 6] 6 rfl rfl Facts₀.slices_S512x8_o0_6_S512x1 r
theorem pay6_at : k0_pay6 x (ix2 r (0 : Fin 1)) = rowOf 512 x r 7 := slice_col 512 8 x ![0, 7] 7 rfl rfl Facts₀.slices_S512x8_o0_7_S512x1 r
theorem pay7_at : k0_pay7 x (ix2 r (0 : Fin 1)) = rowOf 512 x r 7 := slice_col 512 8 x ![0, 7] 7 rfl rfl Facts₀.slices_S512x8_o0_7_S512x1 r

end Bits

/-! ## One stage at a time, read at row r

  Below, ι is the one index (r, 0) of a one-column vector's row r; a, b are row r of the two loaded chunks and c the
  row's incoming borrow. -/

section Stages
variable (v4 v6 : Vec Ideal S512x8 .f32) (v8 : Vec Ideal S512x1 .f32) (r : Fin 512)

local notation "ι" => (ix2 r (0 : Fin 1) : S512x1.Idx)
local notation "a" => rowOf 512 v4 r
local notation "b" => rowOf 512 v6 r
local notation "c" => colOf 512 v8 r

/-- Column 7's difference bit. -/
theorem pay8_at : k0_pay8 v4 v6 v8 ι = dif (a 7) (b 7) c := by
  have h : k0_pay8 v4 v6 v8 ι = dif (k0_pay6 v4 ι) (k0_pay7 v6 ι) (v8 ι) := rfl
  rw [h, pay6_at, pay7_at]; rfl

/-- The borrow leaving column 7. -/
theorem B7_at : B7 v4 v6 v8 ι = bw7 a b c := by
  have h : B7 v4 v6 v8 ι = bor (k0_pay6 v4 ι) (k0_pay7 v6 ι) (v8 ι) := rfl
  rw [h, pay6_at, pay7_at]; rfl

/-- Column 6's difference bit. -/
theorem pay12_at : k0_pay12 v4 v6 v8 ι = dif (a 6) (b 6) (bw7 a b c) := by
  have h : k0_pay12 v4 v6 v8 ι = dif (k0_pay10 v4 ι) (k0_pay11 v6 ι) (B7 v4 v6 v8 ι) := rfl
  rw [h, pay10_at, pay11_at, B7_at]

/-- The borrow leaving column 6: the body splits this stage's inner "or" into its sum and its product, handed on as two
    vectors, and finishes it in the next vector. -/
theorem B6_at : B6 v4 v6 v8 ι = bw6 a b c := by
  have h : B6 v4 v6 v8 ι = bor (k0_pay10 v4 ι) (k0_pay11 v6 ι) (B7 v4 v6 v8 ι) := rfl
  rw [h, pay10_at, pay11_at, B7_at]; rfl

/-- Column 5's difference bit. -/
theorem pay21_at : k0_pay21 v4 v6 (B7 v4 v6 v8) (k0_pay11 v6) (k0_pay16 v4 v6 v8) (k0_pay17 v4 v6 v8) ι
    = dif (a 5) (b 5) (bw6 a b c) := by
  have h : k0_pay21 v4 v6 (B7 v4 v6 v8) (k0_pay11 v6) (k0_pay16 v4 v6 v8) (k0_pay17 v4 v6 v8) ι
      = dif (k0_pay19 v4 ι) (k0_pay20 v6 ι) (B6 v4 v6 v8 ι) := rfl
  rw [h, pay19_at, pay20_at, B6_at]

/-- The borrow leaving column 5. -/
theorem B5_at : B5 v4 v6 v8 ι = bw5 a b c := by
  have h : B5 v4 v6 v8 ι = bor (k0_pay19 v4 ι) (k0_pay20 v6 ι) (B6 v4 v6 v8 ι) := rfl
  rw [h, pay19_at, pay20_at, B6_at]; rfl

/-- Column 4's difference bit. -/
theorem pay25_at : k0_pay25 v4 v6 (B7 v4 v6 v8) (k0_pay11 v6) (k0_pay16 v4 v6 v8) (k0_pay17 v4 v6 v8) ι
    = dif (a 4) (b 4) (bw5 a b c) := by
  have h : k0_pay25 v4 v6 (B7 v4 v6 v8) (k0_pay11 v6) (k0_pay16 v4 v6 v8) (k0_pay17 v4 v6 v8) ι
      = dif (k0_pay23 v4 ι) (k0_pay24 v6 ι) (B5 v4 v6 v8 ι) := rfl
  rw [h, pay23_at, pay24_at, B5_at]

/-- The borrow leaving column 4. -/
theorem B4_at : B4 v4 v6 v8 ι = bw4 a b c := by
  have h : B4 v4 v6 v8 ι = bor (k0_pay23 v4 ι) (k0_pay24 v6 ι) (B5 v4 v6 v8 ι) := rfl
  rw [h, pay23_at, pay24_at, B5_at]; rfl

/-- Column 3's difference bit (the stage's first sum a₃ + b₃ arrives as a vector of its own). -/
theorem pay30_at : k0_pay30 (B4 v4 v6 v8) (k0_pay27 v4) (k0_pay28 v6) (k0_pay29 v4 v6) ι
    = dif (a 3) (b 3) (bw4 a b c) := by
  have h : k0_pay30 (B4 v4 v6 v8) (k0_pay27 v4) (k0_pay28 v6) (k0_pay29 v4 v6) ι
      = dif (k0_pay27 v4 ι) (k0_pay28 v6 ι) (B4 v4 v6 v8 ι) := rfl
  rw [h, pay27_at, pay28_at, B4_at]

/-- The borrow leaving column 3. -/
theorem B3_at : B3 v4 v6 v8 ι = bw3 a b c := by
  have h : B3 v4 v6 v8 ι = bor (k0_pay27 v4 ι) (k0_pay28 v6 ι) (B4 v4 v6 v8 ι) := rfl
  rw [h, pay27_at, pay28_at, B4_at]; rfl

/-- Column 2's difference bit. -/
theorem pay34_at : k0_pay34 v4 v6 (B4 v4 v6 v8) (k0_pay27 v4) (k0_pay28 v6) ι = dif (a 2) (b 2) (bw3 a b c) := by
  have h : k0_pay34 v4 v6 (B4 v4 v6 v8) (k0_pay27 v4) (k0_pay28 v6) ι
      = dif (k0_pay32 v4 ι) (k0_pay33 v6 ι) (B3 v4 v6 v8 ι) := rfl
  rw [h, pay32_at, pay33_at, B3_at]

/-- The borrow leaving column 2. -/
theorem B2_at : B2 v4 v6 v8 ι = bw2 a b c := by
  have h : B2 v4 v6 v8 ι = bor (k0_pay32 v4 ι) (k0_pay33 v6 ι) (B3 v4 v6 v8 ι) := rfl
  rw [h, pay32_at, pay33_at, B3_at]; rfl

/-- The borrow leaving column 1. -/
theorem B1_at : B1 v4 v6 v8 ι = bw1 a b c := by
  have h : B1 v4 v6 v8 ι = bor (k0_pay36 v4 ι) (k0_pay37 v6 ι) (B2 v4 v6 v8 ι) := rfl
  rw [h, pay36_at, pay37_at, B2_at]; rfl

/-! ## The two stored values -/

/-- The eight concatenated columns, each read at row r: columns 7 … 2 are vectors the stages handed on, columns 1 and 0 are
    finished inside the concatenating vector itself. -/
theorem chunkDiffs_cols (k : Fin 8) : chunkDiffs v4 v6 v8 (ix2 r k)
    = pick8 (dif (k0_pay2 v4 ι) (k0_pay3 v6 ι) (B1 v4 v6 v8 ι))
        (dif (k0_pay36 v4 ι) (k0_pay37 v6 ι) (B2 v4 v6 v8 ι))
        (k0_pay34 v4 v6 (B4 v4 v6 v8) (k0_pay27 v4) (k0_pay28 v6) ι)
        (k0_pay30 (B4 v4 v6 v8) (k0_pay27 v4) (k0_pay28 v6) (k0_pay29 v4 v6) ι)
        (k0_pay25 v4 v6 (B7 v4 v6 v8) (k0_pay11 v6) (k0_pay16 v4 v6 v8) (k0_pay17 v4 v6 v8) ι)
        (k0_pay21 v4 v6 (B7 v4 v6 v8) (k0_pay11 v6) (k0_pay16 v4 v6 v8) (k0_pay17 v4 v6 v8) ι)
        (k0_pay12 v4 v6 v8 ι) (k0_pay8 v4 v6 v8 ι) k := by
  unfold chunkDiffs k0_pay5
  refine (concat8_apply 512 _ _ _ _ _ _ _ _ _ r k).trans ?_
  match k with
  | 0 => rfl
  | 1 => rfl
  | 2 => rfl
  | 3 => rfl
  | 4 => rfl
  | 5 => rfl
  | 6 => rfl
  | 7 => rfl

/-- Entry (r, k) of the stored difference columns is column k's difference bit of row r. -/
theorem chunkDiffs_at (k : Fin 8) : chunkDiffs v4 v6 v8 (ix2 r k) = diffBit a b c k := by
  rw [chunkDiffs_cols, pay2_at, pay3_at, B1_at, pay36_at, pay37_at, B2_at, pay34_at, pay30_at, pay25_at, pay21_at,
    pay12_at, pay8_at]
  match k with
  | 0 => rfl
  | 1 => rfl
  | 2 => rfl
  | 3 => rfl
  | 4 => rfl
  | 5 => rfl
  | 6 => rfl
  | 7 => rfl

/-- Entry (r, 0) of the stored borrow column is row r's final borrow. -/
theorem chunkBorrow_at : chunkBorrow v4 v6 v8 ι = bw0 a b c := by
  have h : chunkBorrow v4 v6 v8 ι = bor (k0_pay2 v4 ι) (k0_pay3 v6 ι) (B1 v4 v6 v8 ι) := rfl
  rw [h, pay2_at, pay3_at, B1_at]; rfl

end Stages

end Cert.KernelIdeal.Chunk

end
-- ==== Proof.BlockValue.lean ====
/-
  One 4096-row block of the kernel, read row by row.

  At a grid point the body runs eight trips; trip k loads rows 512·k … 512·k + 511 of the point's three input blocks and
  stores the chunk's difference columns and its borrow column over the same rows of the two output blocks. So what the
  body leaves in each output's staging buffer is a list of eight stores, and every one of them is a restriction of ONE
  function of the block's index: row q of the difference block is the eight difference bits of row q of the input blocks,
  row q of the borrow block is that row's final borrow. A list of stores that are all blocks of one function, and that
  cover the buffer, reads back as that function.
-/
import proofs.«136779_j23407571764121_2_alg».proof.Proof.Gen.KernelIdeal.Frame
import proofs.«136779_j23407571764121_2_alg».proof.Proof.ChunkValue
import Idealize.ShloMosaic.Lib.Pipeline.Value
import Idealize.ShloMosaic.Lib.Tactic

noncomputable section

namespace Cert.KernelIdeal.Block

open Cert.KernelIdeal Cert.KernelIdeal.Gen Cert.KernelIdeal.Chunk Cert.Subtractor
open Idealize.ShloMosaic Idealize.ShloMosaic.TcCoe Idealize.ShloMosaic.Tactic Idealize.ShloMosaic.ValueIdx
open Idealize.SL Idealize.SL.Sem

/-! ## A chunk's stored values are rows of the block's functions -/

section Chunk

/-- Row r of a chunk loaded from row offset o is row o + r of the block: the eight bits … -/
theorem row_ld (o : ℕ) (off1 : Fin 2 → ℕ) (h10 : off1 0 = o) (h11 : off1 1 = 0)
    (inb1 : ∀ a, off1 a + S512x8.size a ≤ S4096x8.size a)
    (x : Vec Ideal S4096x8 .f32) (r : Fin 512) (q : Fin 4096) (hq : q.val = o + r.val) :
    rowOf 512 (View.ld x (Rect.unit (s := S4096x8) off1 S512x8.size inb1)) r = rowOf 4096 x q := by
  funext j
  show x ((Rect.unit (s := S4096x8) off1 S512x8.size inb1).idx (ix2 r j)) = x (ix2 q j)
  refine congrArg x (funext fun a => Fin.ext ?_)
  match a with
  | ⟨0, _⟩ => show off1 0 + 1 * r.val = q.val; rw [h10, hq, Nat.one_mul]
  | ⟨1, _⟩ => show off1 1 + 1 * j.val = j.val; rw [h11, Nat.one_mul, Nat.zero_add]

/-- … and its incoming borrow. -/
theorem col_ld (o : ℕ) (off2 : Fin 2 → ℕ) (h20 : off2 0 = o) (h21 : off2 1 = 0)
    (inb2 : ∀ a, off2 a + S512x1.size a ≤ S4096x1.size a)
    (x2 : Vec Ideal S4096x1 .f32) (r : Fin 512) (q : Fin 4096) (hq : q.val = o + r.val) :
    colOf 512 (View.ld x2 (Rect.unit (s := S4096x1) off2 S512x1.size inb2)) r = colOf 4096 x2 q := by
  show x2 ((Rect.unit (s := S4096x1) off2 S512x1.size inb2).idx (ix2 r (0 : Fin 1))) = x2 (ix2 q (0 : Fin 1))
  refine congrArg x2 (funext fun a => Fin.ext ?_)
  match a with
  | ⟨0, _⟩ => show off2 0 + 1 * r.val = q.val; rw [h20, hq, Nat.one_mul]
  | ⟨1, _⟩ => show off2 1 + 1 * 0 = 0; rw [h21]

/-- The stored difference columns of a chunk at row offset o are rows o … o + 511 of the block's difference bits. -/
theorem piece_diffs (x0 x1 : Vec Ideal S4096x8 .f32) (x2 : Vec Ideal S4096x1 .f32)
    (o : ℕ) (off1 off2 : Fin 2 → ℕ) (h10 : off1 0 = o) (h11 : off1 1 = 0) (h20 : off2 0 = o) (h21 : off2 1 = 0)
    (inb1 : ∀ a, off1 a + S512x8.size a ≤ S4096x8.size a) (inb2 : ∀ a, off2 a + S512x1.size a ≤ S4096x1.size a)
    (x : S512x8.Idx) :
    chunkDiffs (View.ld x0 (Rect.unit (s := S4096x8) off1 S512x8.size inb1)) (View.ld x1 (Rect.unit (s := S4096x8) off1 S512x8.size inb1)) (View.ld x2 (Rect.unit (s := S4096x1) off2 S512x1.size inb2)) x
      = diffsOf 4096 x0 x1 x2 ((Rect.unit (s := S4096x8) off1 S512x8.size inb1).emb x) := by
  obtain ⟨r, k, rfl⟩ : ∃ (r : Fin 512) (k : Fin 8), x = ix2 r k := ⟨x 0, x 1, eq_ix2 x⟩
  have hb : o + r.val < 4096 := by
    have h : off1 0 + 512 ≤ 4096 := inb1 0
    have := r.isLt
    rw [h10] at h; omega
  have e0 : ((Rect.unit (s := S4096x8) off1 S512x8.size inb1).emb (ix2 r k)) 0 = (⟨o + r.val, hb⟩ : Fin 4096) :=
    Fin.ext (by show off1 0 + 1 * r.val = o + r.val; rw [h10, Nat.one_mul])
  have e1 : ((Rect.unit (s := S4096x8) off1 S512x8.size inb1).emb (ix2 r k)) 1 = k :=
    Fin.ext (by show off1 1 + 1 * k.val = k.val; rw [h11, Nat.one_mul, Nat.zero_add])
  rw [chunkDiffs_at, row_ld o off1 h10 h11 inb1 x0 r ⟨o + r.val, hb⟩ rfl, row_ld o off1 h10 h11 inb1 x1 r ⟨o + r.val, hb⟩ rfl,
    col_ld o off2 h20 h21 inb2 x2 r ⟨o + r.val, hb⟩ rfl]
  show _ = diffBit (rowOf 4096 x0 (((Rect.unit (s := S4096x8) off1 S512x8.size inb1).emb (ix2 r k)) 0)) (rowOf 4096 x1 (((Rect.unit (s := S4096x8) off1 S512x8.size inb1).emb (ix2 r k)) 0))
      (colOf 4096 x2 (((Rect.unit (s := S4096x8) off1 S512x8.size inb1).emb (ix2 r k)) 0)) (((Rect.unit (s := S4096x8) off1 S512x8.size inb1).emb (ix2 r k)) 1)
  rw [e0, e1]

/-- The stored borrow column of a chunk at row offset o is rows o … o + 511 of the block's final borrows. -/
theorem piece_borrow (x0 x1 : Vec Ideal S4096x8 .f32) (x2 : Vec Ideal S4096x1 .f32)
    (o : ℕ) (off1 off2 : Fin 2 → ℕ) (h10 : off1 0 = o) (h11 : off1 1 = 0) (h20 : off2 0 = o) (h21 : off2 1 = 0)
    (inb1 : ∀ a, off1 a + S512x8.size a ≤ S4096x8.size a) (inb2 : ∀ a, off2 a + S512x1.size a ≤ S4096x1.size a)
    (x : S512x1.Idx) :
    chunkBorrow (View.ld x0 (Rect.unit (s := S4096x8) off1 S512x8.size inb1)) (View.ld x1 (Rect.unit (s := S4096x8) off1 S512x8.size inb1)) (View.ld x2 (Rect.unit (s := S4096x1) off2 S512x1.size inb2)) x
      = borrowOf 4096 x0 x1 x2 ((Rect.unit (s := S4096x1) off2 S512x1.size inb2).emb x) := by
  obtain ⟨r, z, rfl⟩ : ∃ (r : Fin 512) (z : Fin 1), x = ix2 r z := ⟨x 0, x 1, eq_ix2 x⟩
  obtain rfl : z = 0 := Subsingleton.elim z 0
  have hb : o + r.val < 4096 := by
    have h : off1 0 + 512 ≤ 4096 := inb1 0
    have := r.isLt
    rw [h10] at h; omega
  have e0 : ((Rect.unit (s := S4096x1) off2 S512x1.size inb2).emb (ix2 r (0 : Fin 1))) 0 = (⟨o + r.val, hb⟩ : Fin 4096) :=
    Fin.ext (by show off2 0 + 1 * r.val = o + r.val; rw [h20, Nat.one_mul])
  rw [chunkBorrow_at, row_ld o off1 h10 h11 inb1 x0 r ⟨o + r.val, hb⟩ rfl, row_ld o off1 h10 h11 inb1 x1 r ⟨o + r.val, hb⟩ rfl,
    col_ld o off2 h20 h21 inb2 x2 r ⟨o + r.val, hb⟩ rfl]
  show _ = bw0 (rowOf 4096 x0 (((Rect.unit (s := S4096x1) off2 S512x1.size inb2).emb (ix2 r (0 : Fin 1))) 0)) (rowOf 4096 x1 (((Rect.unit (s := S4096x1) off2 S512x1.size inb2).emb (ix2 r (0 : Fin 1))) 0))
      (colOf 4096 x2 (((Rect.unit (s := S4096x1) off2 S512x1.size inb2).emb (ix2 r (0 : Fin 1))) 0))
  rw [e0]

end Chunk

/-! ## One trip's stores -/

section Trip
variable (𝒱 : Variants) (c : Dev nD) (bd : Option 𝒱.V) (i : grid0.Coords) (arg1 : Memref sig .tc .vmem S4096x8 .f32) (harg1 : arg1.IsWhole) (arg2 : Memref sig .tc .vmem S4096x8 .f32) (harg2 : arg2.IsWhole) (arg3 : Memref sig .tc .vmem S4096x1 .f32) (harg3 : arg3.IsWhole) (arg4 : Memref sig .tc .vmem S4096x8 .f32) (harg4 : arg4.IsWhole) (arg5 : Memref sig .tc .vmem S4096x1 .f32) (harg5 : arg5.IsWhole)
variable (X1 : BufTy.Contents (Elt Ideal) arg1.view.ty) (X2 : BufTy.Contents (Elt Ideal) arg2.view.ty) (X3 : BufTy.Contents (Elt Ideal) arg3.view.ty)
variable (k : Fin k0_t1_loop.trips)

/-- Trip k stores, over the trip's rows of the difference block, the difference columns of the chunks it loaded. -/
theorem trip_diffs :
    (trip_k0_t1 (F := Ideal) 𝒱 c bd i arg1 harg1 arg2 harg2 arg3 harg3 arg4 harg4 arg5 harg5 X1 X2 X3 k).1
      = ([⟨Rect.unit (s := S4096x8) (k0_off1 k) S512x8.size (Facts₀.k0_off1_inb k),
          chunkDiffs (View.readAt (Elt Ideal) arg1.view (Rect.unit (s := S4096x8) (k0_off1 k) S512x8.size (Facts₀.k0_off1_inb k)).toLoadRect X1)
            (View.readAt (Elt Ideal) arg2.view (Rect.unit (s := S4096x8) (k0_off1 k) S512x8.size (Facts₀.k0_off1_inb k)).toLoadRect X2)
            (View.readAt (Elt Ideal) arg3.view (Rect.unit (s := S4096x1) (k0_off2 k) S512x1.size (Facts₀.k0_off2_inb k)).toLoadRect X3)⟩] :
          List (View.Piece (Elt Ideal) S4096x8 .f32)) := by
  unfold trip_k0_t1
  dsimp only
  sl_unfold_run_names
  rfl

/-- Trip k stores, over the trip's rows of the borrow block, the borrow column of the chunks it loaded. -/
theorem trip_borrow :
    (trip_k0_t1 (F := Ideal) 𝒱 c bd i arg1 harg1 arg2 harg2 arg3 harg3 arg4 harg4 arg5 harg5 X1 X2 X3 k).2.1
      = ([⟨Rect.unit (s := S4096x1) (k0_off2 k) S512x1.size (Facts₀.k0_off2_inb k),
          chunkBorrow (View.readAt (Elt Ideal) arg1.view (Rect.unit (s := S4096x8) (k0_off1 k) S512x8.size (Facts₀.k0_off1_inb k)).toLoadRect X1)
            (View.readAt (Elt Ideal) arg2.view (Rect.unit (s := S4096x8) (k0_off1 k) S512x8.size (Facts₀.k0_off1_inb k)).toLoadRect X2)
            (View.readAt (Elt Ideal) arg3.view (Rect.unit (s := S4096x1) (k0_off2 k) S512x1.size (Facts₀.k0_off2_inb k)).toLoadRect X3)⟩] :
          List (View.Piece (Elt Ideal) S4096x1 .f32)) := by
  unfold trip_k0_t1
  dsimp only
  sl_unfold_run_names
  rfl

end Trip

/-! ## All the trips' stores, and what the staging buffers hold after the body -/

section Body
variable (c : Dev nD) (i : grid0.Coords) (arg1 : Memref sig .tc .vmem S4096x8 .f32) (harg1 : arg1.IsWhole) (arg2 : Memref sig .tc .vmem S4096x8 .f32) (harg2 : arg2.IsWhole) (arg3 : Memref sig .tc .vmem S4096x1 .f32) (harg3 : arg3.IsWhole) (arg4 : Memref sig .tc .vmem S4096x8 .f32) (harg4 : arg4.IsWhole) (arg5 : Memref sig .tc .vmem S4096x1 .f32) (harg5 : arg5.IsWhole)
variable (x0 x1 : Vec Ideal S4096x8 .f32) (x2 : Vec Ideal S4096x1 .f32)

/-- Every store the trips before trip n made into the difference block is a block of the block's difference bits:
    by induction on n, the new trip's one store by `piece_diffs` (its three loads read the input blocks through the trip's
    rectangles, whose row offsets agree and whose column offsets are zero). -/
theorem pieces_diffs : ∀ (n : ℕ), ∀ p ∈ (pb_k0_t1 (F := Ideal) Variants.none c none i arg1 harg1 arg2 harg2 arg3 harg3 arg4 harg4 arg5 harg5 (harg1.unread x0) (harg2.unread x1) (harg3.unread x2) n).1,
    ∀ x : p.1.shape.Idx, p.2 x = diffsOf 4096 x0 x1 x2 (p.1.emb x)
  | 0 => fun p hp => absurd hp List.not_mem_nil
  | n + 1 => by
    rw [pb_k0_t1.eq_2]
    unfold pb_k0_t1Step
    split
    · next h =>
      intro p hp x
      rcases List.mem_append.mp hp with h1 | h2
      · have h1' : p ∈ (trip_k0_t1 (F := Ideal) Variants.none c none i arg1 harg1 arg2 harg2 arg3 harg3 arg4 harg4 arg5 harg5 (harg1.unread x0) (harg2.unread x1) (harg3.unread x2) ⟨n, h⟩).1 := h1
        rw [trip_diffs] at h1'
        obtain rfl := List.mem_singleton.mp h1'
        simp only [View.readAt_eq_ld, harg1.read_unread, harg2.read_unread, harg3.read_unread]
        exact piece_diffs x0 x1 x2 ((k0_off1 ⟨n, h⟩) 0) (k0_off1 ⟨n, h⟩) (k0_off2 ⟨n, h⟩) rfl rfl rfl rfl _ _ x
      · exact pieces_diffs n p h2 x
    · exact pieces_diffs n

/-- The same for the borrow block. -/
theorem pieces_borrow : ∀ (n : ℕ), ∀ p ∈ (pb_k0_t1 (F := Ideal) Variants.none c none i arg1 harg1 arg2 harg2 arg3 harg3 arg4 harg4 arg5 harg5 (harg1.unread x0) (harg2.unread x1) (harg3.unread x2) n).2,
    ∀ x : p.1.shape.Idx, p.2 x = borrowOf 4096 x0 x1 x2 (p.1.emb x)
  | 0 => fun p hp => absurd hp List.not_mem_nil
  | n + 1 => by
    rw [pb_k0_t1.eq_2]
    unfold pb_k0_t1Step
    split
    · next h =>
      intro p hp x
      rcases List.mem_append.mp hp with h1 | h2
      · have h1' : p ∈ (trip_k0_t1 (F := Ideal) Variants.none c none i arg1 harg1 arg2 harg2 arg3 harg3 arg4 harg4 arg5 harg5 (harg1.unread x0) (harg2.unread x1) (harg3.unread x2) ⟨n, h⟩).2.1 := h1
        rw [trip_borrow] at h1'
        obtain rfl := List.mem_singleton.mp h1'
        simp only [View.readAt_eq_ld, harg1.read_unread, harg2.read_unread, harg3.read_unread]
        exact piece_borrow x0 x1 x2 ((k0_off1 ⟨n, h⟩) 0) (k0_off1 ⟨n, h⟩) (k0_off2 ⟨n, h⟩) rfl rfl rfl rfl _ _ x
      · exact pieces_borrow n p h2 x
    · exact pieces_borrow n

/-- After the body the difference block's staging buffer holds the difference bits of the input blocks, row by row. -/
theorem out_diffs : out0_A_3 (F := Ideal) c i arg1 harg1 arg2 harg2 arg3 harg3 arg4 harg4 arg5 harg5 x0 x1 x2 = diffsOf 4096 x0 x1 x2 := by
  unfold out0_A_3
  rw [View.read_writes_eq_canon _ _ _ (cover0_A_3 c i arg1 harg1 arg2 harg2 arg3 harg3 arg4 harg4 arg5 harg5 x0 x1 x2)]
  funext y
  refine View.canon_apply_of_pieces (diffsOf 4096 x0 x1 x2) _ ?_ y (cover0_A_3 c i arg1 harg1 arg2 harg2 arg3 harg3 arg4 harg4 arg5 harg5 x0 x1 x2 y)
  unfold kernelRun0_A
  dsimp only
  exact pieces_diffs c i arg1 harg1 arg2 harg2 arg3 harg3 arg4 harg4 arg5 harg5 x0 x1 x2 _

/-- After the body the borrow block's staging buffer holds the final borrows of the input blocks' rows. -/
theorem out_borrow : out0_A_4 (F := Ideal) c i arg1 harg1 arg2 harg2 arg3 harg3 arg4 harg4 arg5 harg5 x0 x1 x2 = borrowOf 4096 x0 x1 x2 := by
  unfold out0_A_4
  rw [View.read_writes_eq_canon _ _ _ (cover0_A_4 c i arg1 harg1 arg2 harg2 arg3 harg3 arg4 harg4 arg5 harg5 x0 x1 x2)]
  funext y
  refine View.canon_apply_of_pieces (borrowOf 4096 x0 x1 x2) _ ?_ y (cover0_A_4 c i arg1 harg1 arg2 harg2 arg3 harg3 arg4 harg4 arg5 harg5 x0 x1 x2 y)
  unfold kernelRun0_A
  dsimp only
  exact pieces_borrow c i arg1 harg1 arg2 harg2 arg3 harg3 arg4 harg4 arg5 harg5 x0 x1 x2 _

end Body

end Cert.KernelIdeal.Block

end
-- ==== Proof.KernelArray.lean ====
/-
  The kernel's two result arrays after the run.

  The grid has 2048 points; point t stages rows 4096·t … 4096·t + 4095 of A, of B and of the incoming borrows (every
  window's block index is (t, 0)), runs the body, and writes the two staging buffers back over the same rows of the two
  result arrays. The body leaves in them the difference bits and the final borrows of the staged rows (BlockValue), and row
  q of a staged block is row 4096·t + q of its array: so what point t writes back is block t of ONE function of the
  argument arrays — the difference bits, respectively the final borrow, of every row. The blocks of the 2048 points tile
  the arrays (row i is in the block of point i / 4096), so after the run each result array is that function.
-/
import proofs.«136779_j23407571764121_2_alg».proof.Proof.Gen.KernelIdeal.Value
import proofs.«136779_j23407571764121_2_alg».proof.Proof.BlockValue

noncomputable section

namespace Cert.KernelIdeal.Whole

open Cert.KernelIdeal Cert.KernelIdeal.Gen Cert.KernelIdeal.Block Cert.Subtractor
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The printed index maps, decided over the 2048 grid points: every window's block index at point t is (t, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-! ## A staged block's rows are the array's rows -/

/-- Row q of the block of A staged at point t is row 4096·t + q of A. -/
theorem blk_row0 (c : Dev nD) (t : Fin cfg0.N) (q : Fin 4096) (Q : Fin 8388608) (hQ : Q.val = t.val * 4096 + q.val) :
    rowOf 4096 (iblk m c 0 t) q = rowOf 8388608 (V m c main_arg0) Q := by
  funext k
  show V m c main_arg0 (((cfg0.win 0).blk t).view.emb (ix2 q k)) = V m c main_arg0 (ix2 Q k)
  obtain ⟨e0, e1, -⟩ := idx_facts t
  refine congrArg (V m c main_arg0) (funext fun a => Fin.ext ?_)
  match a with
  | ⟨0, _⟩ => show win0_0.index t (0 : Fin 2) * 4096 + 1 * q.val = Q.val; rw [e0, hQ, Nat.one_mul]
  | ⟨1, _⟩ => show win0_0.index t (1 : Fin 2) * 8 + 1 * k.val = k.val; rw [e1]; omega

/-- Row q of the block of B staged at point t is row 4096·t + q of B. -/
theorem blk_row1 (c : Dev nD) (t : Fin cfg0.N) (q : Fin 4096) (Q : Fin 8388608) (hQ : Q.val = t.val * 4096 + q.val) :
    rowOf 4096 (iblk m c 1 t) q = rowOf 8388608 (V m c main_arg1) Q := by
  funext k
  show V m c main_arg1 (((cfg0.win 1).blk t).view.emb (ix2 q k)) = V m c main_arg1 (ix2 Q k)
  obtain ⟨-, -, e0, e1, -⟩ := idx_facts t
  refine congrArg (V m c main_arg1) (funext fun a => Fin.ext ?_)
  match a with
  | ⟨0, _⟩ => show win0_1.index t (0 : Fin 2) * 4096 + 1 * q.val = Q.val; rw [e0, hQ, Nat.one_mul]
  | ⟨1, _⟩ => show win0_1.index t (1 : Fin 2) * 8 + 1 * k.val = k.val; rw [e1]; omega

/-- The incoming borrow of row q of the block staged at point t is that of row 4096·t + q. -/
theorem blk_col2 (c : Dev nD) (t : Fin cfg0.N) (q : Fin 4096) (Q : Fin 8388608) (hQ : Q.val = t.val * 4096 + q.val) :
    colOf 4096 (iblk m c 2 t) q = colOf 8388608 (V m c main_arg2) Q := by
  show V m c main_arg2 (((cfg0.win 2).blk t).view.emb (ix2 q (0 : Fin 1))) = V m c main_arg2 (ix2 Q (0 : Fin 1))
  obtain ⟨-, -, -, -, e0, e1, -⟩ := idx_facts t
  refine congrArg (V m c main_arg2) (funext fun a => Fin.ext ?_)
  match a with
  | ⟨0, _⟩ => show win0_2.index t (0 : Fin 2) * 4096 + 1 * q.val = Q.val; rw [e0, hQ, Nat.one_mul]
  | ⟨1, _⟩ => show win0_2.index t (1 : Fin 2) * 1 + 1 * 0 = 0; rw [e1]

/-- Point t's rows are rows of the array: 4096·t + q is below 8388608. -/
theorem row_lt (t : Fin cfg0.N) (q : Fin 4096) : t.val * 4096 + q.val < 8388608 := by
  have hN : cfg0.N = 2048 := N_0
  have := t.isLt
  have := q.isLt
  omega

/-! ## What a point writes back -/

/-- Point t writes back, to the difference array, block t of the difference bits of every row. -/
theorem flushed_diffs (c : Dev nD) (t : Fin cfg0.N) :
    (dats m 0 c).flushed 3 t = ((cfg0.win 3).blk t).view.read (Elt Ideal) (diffsOf 8388608 (V m c main_arg0) (V m c main_arg1) (V m c main_arg2)) := by
  rw [Value.flushed3_A, out_diffs]
  funext j
  obtain ⟨q, k, rfl⟩ : ∃ (q : Fin 4096) (k : Fin 8), j = ix2 q k := ⟨j 0, j 1, eq_ix2 (n0 := 4096) (n1 := 8) j⟩
  obtain ⟨-, -, -, -, -, -, e0, e1, -⟩ := idx_facts t
  have hQ0 : (((cfg0.win 3).blk t).view.emb (ix2 q k)) 0 = (⟨t.val * 4096 + q.val, row_lt t q⟩ : Fin 8388608) :=
    Fin.ext (by show win0_3.index t (0 : Fin 2) * 4096 + 1 * q.val = t.val * 4096 + q.val; rw [e0, Nat.one_mul])
  have hQ1 : (((cfg0.win 3).blk t).view.emb (ix2 q k)) 1 = k :=
    Fin.ext (by show win0_3.index t (1 : Fin 2) * 8 + 1 * k.val = k.val; rw [e1]; omega)
  show diffBit (rowOf 4096 (iblk m c 0 t) q) (rowOf 4096 (iblk m c 1 t) q) (colOf 4096 (iblk m c 2 t) q) k
      = diffBit (rowOf 8388608 (V m c main_arg0) ((((cfg0.win 3).blk t).view.emb (ix2 q k)) 0))
          (rowOf 8388608 (V m c main_arg1) ((((cfg0.win 3).blk t).view.emb (ix2 q k)) 0))
          (colOf 8388608 (V m c main_arg2) ((((cfg0.win 3).blk t).view.emb (ix2 q k)) 0))
          ((((cfg0.win 3).blk t).view.emb (ix2 q k)) 1)
  rw [hQ0, hQ1, blk_row0 m c t q ⟨t.val * 4096 + q.val, row_lt t q⟩ rfl, blk_row1 m c t q ⟨t.val * 4096 + q.val, row_lt t q⟩ rfl,
    blk_col2 m c t q ⟨t.val * 4096 + q.val, row_lt t q⟩ rfl]

/-- Point t writes back, to the borrow array, block t of the final borrow of every row. -/
theorem flushed_borrow (c : Dev nD) (t : Fin cfg0.N) :
    (dats m 0 c).flushed 4 t = ((cfg0.win 4).blk t).view.read (Elt Ideal) (borrowOf 8388608 (V m c main_arg0) (V m c main_arg1) (V m c main_arg2)) := by
  rw [Value.flushed4_A, out_borrow]
  funext j
  obtain ⟨q, z, rfl⟩ : ∃ (q : Fin 4096) (z : Fin 1), j = ix2 q z := ⟨j 0, j 1, eq_ix2 (n0 := 4096) (n1 := 1) j⟩
  obtain rfl : z = 0 := Subsingleton.elim z 0
  obtain ⟨-, -, -, -, -, -, -, -, e0, e1⟩ := idx_facts t
  have hQ0 : (((cfg0.win 4).blk t).view.emb (ix2 q (0 : Fin 1))) 0 = (⟨t.val * 4096 + q.val, row_lt t q⟩ : Fin 8388608) :=
    Fin.ext (by show win0_4.index t (0 : Fin 2) * 4096 + 1 * q.val = t.val * 4096 + q.val; rw [e0, Nat.one_mul])
  show bw0 (rowOf 4096 (iblk m c 0 t) q) (rowOf 4096 (iblk m c 1 t) q) (colOf 4096 (iblk m c 2 t) q)
      = bw0 (rowOf 8388608 (V m c main_arg0) ((((cfg0.win 4).blk t).view.emb (ix2 q (0 : Fin 1))) 0))
          (rowOf 8388608 (V m c main_arg1) ((((cfg0.win 4).blk t).view.emb (ix2 q (0 : Fin 1))) 0))
          (colOf 8388608 (V m c main_arg2) ((((cfg0.win 4).blk t).view.emb (ix2 q (0 : Fin 1))) 0))
  rw [hQ0, blk_row0 m c t q ⟨t.val * 4096 + q.val, row_lt t q⟩ rfl, blk_row1 m c t q ⟨t.val * 4096 + q.val, row_lt t q⟩ rfl,
    blk_col2 m c t q ⟨t.val * 4096 + q.val, row_lt t q⟩ rfl]

/-! ## The blocks tile the arrays -/

/-- An index of the difference array is in point t's block iff each coordinate is in the block's range on its axis. -/
theorem mem_blk3 (t : Fin cfg0.N) (i : S8388608x8.Idx) :
    i ∈ ((cfg0.win 3).blk t).view.set ↔ ∀ a : Fin 2, win0_3.index t a * S4096x8.size a ≤ (i a).val ∧ (i a).val < win0_3.index t a * S4096x8.size a + S4096x8.size a := by
  show i ∈ ((View.whole main_v0_0).slice (win0_3.rect t)).set ↔ _
  rw [View.set_slice_whole, Rect.mem_set_unit]
  exact Iff.rfl

/-- The same for the borrow array. -/
theorem mem_blk4 (t : Fin cfg0.N) (i : S8388608x1.Idx) :
    i ∈ ((cfg0.win 4).blk t).view.set ↔ ∀ a : Fin 2, win0_4.index t a * S4096x1.size a ≤ (i a).val ∧ (i a).val < win0_4.index t a * S4096x1.size a + S4096x1.size a := by
  show i ∈ ((View.whole main_v0_1).slice (win0_4.rect t)).set ↔ _
  rw [View.set_slice_whole, Rect.mem_set_unit]
  exact Iff.rfl

/-- Row i of the difference array is in the block of point i / 4096, which writes back. -/
theorem cover_diffs (i : S8388608x8.Idx) :
    ∃ t : Fin cfg0.N, (cfg0.win 3).flush t = true ∧ i ∈ ((cfg0.win 3).blk t).view.set := by
  have hN : cfg0.N = 2048 := N_0
  have hi0 : (i 0).val < 8388608 := (i 0).isLt
  have hi1 : (i 1).val < 8 := (i 1).isLt
  have ht : (i 0).val / 4096 < cfg0.N := by rw [hN]; omega
  refine ⟨⟨(i 0).val / 4096, ht⟩, flush0_3 _, ?_⟩
  obtain ⟨-, -, -, -, -, -, e0, e1, -⟩ := idx_facts ⟨(i 0).val / 4096, ht⟩
  rw [mem_blk3]
  intro a
  match a with
  | ⟨0, _⟩ =>
    show win0_3.index ⟨(i 0).val / 4096, ht⟩ (0 : Fin 2) * 4096 ≤ (i 0).val ∧ (i 0).val < win0_3.index ⟨(i 0).val / 4096, ht⟩ (0 : Fin 2) * 4096 + 4096
    rw [e0]; show (i 0).val / 4096 * 4096 ≤ (i 0).val ∧ (i 0).val < (i 0).val / 4096 * 4096 + 4096; omega
  | ⟨1, _⟩ =>
    show win0_3.index ⟨(i 0).val / 4096, ht⟩ (1 : Fin 2) * 8 ≤ (i 1).val ∧ (i 1).val < win0_3.index ⟨(i 0).val / 4096, ht⟩ (1 : Fin 2) * 8 + 8
    rw [e1]; omega

/-- Row i of the borrow array is in the block of point i / 4096, which writes back. -/
theorem cover_borrow (i : S8388608x1.Idx) :
    ∃ t : Fin cfg0.N, (cfg0.win 4).flush t = true ∧ i ∈ ((cfg0.win 4).blk t).view.set := by
  have hN : cfg0.N = 2048 := N_0
  have hi0 : (i 0).val < 8388608 := (i 0).isLt
  have hi1 : (i 1).val < 1 := (i 1).isLt
  have ht : (i 0).val / 4096 < cfg0.N := by rw [hN]; omega
  refine ⟨⟨(i 0).val / 4096, ht⟩, flush0_4 _, ?_⟩
  obtain ⟨-, -, -, -, -, -, -, -, e0, e1⟩ := idx_facts ⟨(i 0).val / 4096, ht⟩
  rw [mem_blk4]
  intro a
  match a with
  | ⟨0, _⟩ =>
    show win0_4.index ⟨(i 0).val / 4096, ht⟩ (0 : Fin 2) * 4096 ≤ (i 0).val ∧ (i 0).val < win0_4.index ⟨(i 0).val / 4096, ht⟩ (0 : Fin 2) * 4096 + 4096
    rw [e0]; show (i 0).val / 4096 * 4096 ≤ (i 0).val ∧ (i 0).val < (i 0).val / 4096 * 4096 + 4096; omega
  | ⟨1, _⟩ =>
    show win0_4.index ⟨(i 0).val / 4096, ht⟩ (1 : Fin 2) * 1 ≤ (i 1).val ∧ (i 1).val < win0_4.index ⟨(i 0).val / 4096, ht⟩ (1 : Fin 2) * 1 + 1
    rw [e1]; omega

/-! ## The arrays after the run, and the run -/

/-- After the run the difference array holds the difference bits of every row of the arguments. -/
theorem final_diffs (c : Dev nD) : (dats m 0 c).arrAt 3 cfg0.N = (diffsOf 8388608 (V m c main_arg0) (V m c main_arg1) (V m c main_arg2)) :=
  (dats m 0 c).arrAt_eq_of_cover 3 (diffsOf 8388608 (V m c main_arg0) (V m c main_arg1) (V m c main_arg2)) (fun t _ => flushed_diffs m c t) cover_diffs

/-- After the run the borrow array holds the final borrow of every row of the arguments. -/
theorem final_borrow (c : Dev nD) : (dats m 0 c).arrAt 4 cfg0.N = (borrowOf 8388608 (V m c main_arg0) (V m c main_arg1) (V m c main_arg2)) :=
  (dats m 0 c).arrAt_eq_of_cover 4 (borrowOf 8388608 (V m c main_arg0) (V m c main_arg1) (V m c main_arg2)) (fun t _ => flushed_borrow m c t) cover_borrow

/-- The kernel's run at the extended reals: every weakly fair execution terminates with the two result arrays at the
    difference bits and the final borrows of the argument arrays' rows, the arguments unchanged. -/
theorem run : θ_run defs (onTc (τ := τ) (main (F := Ideal))) ⟨m, fun _ => 0, ρ⟩ fun r => ∀ c : Dev nD,
      r.2.mem ((c : Thread nD τ).loc main_v0_0) = (diffsOf 8388608 (V m c main_arg0) (V m c main_arg1) (V m c main_arg2))
      ∧ r.2.mem ((c : Thread nD τ).loc main_v0_1) = (borrowOf 8388608 (V m c main_arg0) (V m c main_arg1) (V m c main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final_diffs m c), (h c).2.1.trans (final_borrow m c), (h c).2.2⟩)
    (Value.run_blocks m ρ)

end Cert.KernelIdeal.Whole

end
-- ==== Proof.RefValue.lean ====
/-
  The reference, read row by row.

  The reference applies the same eight stages to whole columns of the arrays: it slices column k out of A and of B, forms
  the stage's exclusive-or, difference and borrow by pointwise operations on [N, 1] arrays, and at the end concatenates the
  eight difference columns. Its run is stated over named intermediate arrays; read at row r, the arrays that carry a
  stage's exclusive-or and borrow are the specification's stage on row r of A and B and the row's incoming borrow.
  Each lemma reads ONE named array at row r from the ones it is built from; the last two read the two results.
  No law of arithmetic is used: at an index the reference's operations are the specification's, in the same order.
-/
import proofs.«136779_j23407571764121_2_alg».proof.Proof.Gen.ReferenceIdeal.Run
import proofs.«136779_j23407571764121_2_alg».proof.Proof.BitStage
import proofs.«136779_j23407571764121_2_alg».proof.Proof.LibColumnReads
import Idealize.ShloMosaic.Lib.ValueIdx

noncomputable section

namespace Cert.ReferenceIdeal.RefValue

open Cert.ReferenceIdeal Cert.ReferenceIdeal.Value Idealize.ShloMosaic Idealize.ShloMosaic.ValueIdx
open Idealize.ShloMosaic.StableHlo Cert.Subtractor Cert.ColumnReads

/-- The three argument arrays as the run finds them. -/
abbrev argA (V0 : Valuation τ sig (Elt Ideal)) : (⟨2, ![8388608, 8]⟩ : Shape).Idx → EReal := V0 (Proc.devRef .tc main_arg0)
abbrev argB (V0 : Valuation τ sig (Elt Ideal)) : (⟨2, ![8388608, 8]⟩ : Shape).Idx → EReal := V0 (Proc.devRef .tc main_arg1)
abbrev argC (V0 : Valuation τ sig (Elt Ideal)) : (⟨2, ![8388608, 1]⟩ : Shape).Idx → EReal := V0 (Proc.devRef .tc main_arg2)

section Rows
variable (V0 : Valuation τ sig (Elt Ideal)) (r : Fin 8388608)

local notation "ι" => (ix2 r (0 : Fin 1) : S8388608x1.Idx)
local notation "a" => rowOf 8388608 (argA V0) r
local notation "b" => rowOf 8388608 (argB V0) r
local notation "c" => colOf 8388608 (argC V0) r

/-- The two-operand pattern of an exclusive-or of columns, at an index. -/
theorem xr_at (P Q : FVec Ideal S8388608x1 .f32) (j : S8388608x1.Idx) :
    subf (addf P Q) (mulf (mulf (broadcastInDim S8388608x1 ![] Facts₀.bcast_S_S8388608x1 (constant S_ .f32 0x40000000#32)) P) Q) j
      = xr (P j) (Q j) := rfl

/-! ### The column slices are the bits -/
theorem v0_at : res_main_v0 V0 ι = a 7 :=
  slice_col 8388608 8 (argA V0) ![0, 7] 7 rfl rfl Facts₀.slices_S8388608x8_S8388608x1_0_7 r
theorem v1_at : res_main_v1 V0 ι = b 7 :=
  slice_col 8388608 8 (argB V0) ![0, 7] 7 rfl rfl Facts₀.slices_S8388608x8_S8388608x1_0_7 r
theorem v23_at : res_main_v23 V0 ι = a 6 :=
  slice_col 8388608 8 (argA V0) ![0, 6] 6 rfl rfl Facts₀.slices_S8388608x8_S8388608x1_0_6 r
theorem v24_at : res_main_v24 V0 ι = b 6 :=
  slice_col 8388608 8 (argB V0) ![0, 6] 6 rfl rfl Facts₀.slices_S8388608x8_S8388608x1_0_6 r
theorem v46_at : res_main_v46 V0 ι = a 5 :=
  slice_col 8388608 8 (argA V0) ![0, 5] 5 rfl rfl Facts₀.slices_S8388608x8_S8388608x1_0_5 r
theorem v47_at : res_main_v47 V0 ι = b 5 :=
  slice_col 8388608 8 (argB V0) ![0, 5] 5 rfl rfl Facts₀.slices_S8388608x8_S8388608x1_0_5 r
theorem v69_at : res_main_v69 V0 ι = a 4 :=
  slice_col 8388608 8 (argA V0) ![0, 4] 4 rfl rfl Facts₀.slices_S8388608x8_S8388608x1_0_4 r
theorem v70_at : res_main_v70 V0 ι = b 4 :=
  slice_col 8388608 8 (argB V0) ![0, 4] 4 rfl rfl Facts₀.slices_S8388608x8_S8388608x1_0_4 r
theorem v92_at : res_main_v92 V0 ι = a 3 :=
  slice_col 8388608 8 (argA V0) ![0, 3] 3 rfl rfl Facts₀.slices_S8388608x8_S8388608x1_0_3 r
theorem v93_at : res_main_v93 V0 ι = b 3 :=
  slice_col 8388608 8 (argB V0) ![0, 3] 3 rfl rfl Facts₀.slices_S8388608x8_S8388608x1_0_3 r
theorem v115_at : res_main_v115 V0 ι = a 2 :=
  slice_col 8388608 8 (argA V0) ![0, 2] 2 rfl rfl Facts₀.slices_S8388608x8_S8388608x1_0_2 r
theorem v116_at : res_main_v116 V0 ι = b 2 :=
  slice_col 8388608 8 (argB V0) ![0, 2] 2 rfl rfl Facts₀.slices_S8388608x8_S8388608x1_0_2 r
theorem v138_at : res_main_v138 V0 ι = a 1 :=
  slice_col 8388608 8 (argA V0) ![0, 1] 1 rfl rfl Facts₀.slices_S8388608x8_S8388608x1_0_1 r
theorem v139_at : res_main_v139 V0 ι = b 1 :=
  slice_col 8388608 8 (argB V0) ![0, 1] 1 rfl rfl Facts₀.slices_S8388608x8_S8388608x1_0_1 r
theorem v161_at : res_main_v161 V0 ι = a 0 :=
  slice_col 8388608 8 (argA V0) ![0, 0] 0 rfl rfl Facts₀.slices_S8388608x8_S8388608x1_0_0 r
theorem v162_at : res_main_v162 V0 ι = b 0 :=
  slice_col 8388608 8 (argB V0) ![0, 0] 0 rfl rfl Facts₀.slices_S8388608x8_S8388608x1_0_0 r

/-! ### The stages, least significant column first -/

/-- Column 7's exclusive-or a₇ ⊕ b₇. -/
theorem v6_at : res_main_v6 V0 ι = xr (a 7) (b 7) := by
  have h : res_main_v6 V0 ι = xr (res_main_v0 V0 ι) (res_main_v1 V0 ι) := rfl
  rw [h, v0_at, v1_at]

/-- The borrow leaving column 7. -/
theorem v22_at : res_main_v22 V0 ι = bw7 a b c := by
  have h : res_main_v22 V0 ι = bor (res_main_v0 V0 ι) (res_main_v1 V0 ι) (argC V0 ι) := rfl
  rw [h, v0_at, v1_at]; rfl

/-- Column 6's exclusive-or. -/
theorem v29_at : res_main_v29 V0 ι = xr (a 6) (b 6) := by
  have h : res_main_v29 V0 ι = xr (res_main_v23 V0 ι) (res_main_v24 V0 ι) := rfl
  rw [h, v23_at, v24_at]

/-- The borrow leaving column 6. -/
theorem v45_at : res_main_v45 V0 ι = bw6 a b c := by
  have h : res_main_v45 V0 ι = bor (res_main_v23 V0 ι) (res_main_v24 V0 ι) (res_main_v22 V0 ι) := rfl
  rw [h, v23_at, v24_at, v22_at]; rfl

/-- Column 5's exclusive-or. -/
theorem v52_at : res_main_v52 V0 ι = xr (a 5) (b 5) := by
  have h : res_main_v52 V0 ι = xr (res_main_v46 V0 ι) (res_main_v47 V0 ι) := rfl
  rw [h, v46_at, v47_at]

/-- The borrow leaving column 5. -/
theorem v68_at : res_main_v68 V0 ι = bw5 a b c := by
  have h : res_main_v68 V0 ι = bor (res_main_v46 V0 ι) (res_main_v47 V0 ι) (res_main_v45 V0 ι) := rfl
  rw [h, v46_at, v47_at, v45_at]; rfl

/-- Column 4's exclusive-or. -/
theorem v75_at : res_main_v75 V0 ι = xr (a 4) (b 4) := by
  have h : res_main_v75 V0 ι = xr (res_main_v69 V0 ι) (res_main_v70 V0 ι) := rfl
  rw [h, v69_at, v70_at]

/-- The borrow leaving column 4. -/
theorem v91_at : res_main_v91 V0 ι = bw4 a b c := by
  have h : res_main_v91 V0 ι = bor (res_main_v69 V0 ι) (res_main_v70 V0 ι) (res_main_v68 V0 ι) := rfl
  rw [h, v69_at, v70_at, v68_at]; rfl

/-- Column 3's exclusive-or. -/
theorem v98_at : res_main_v98 V0 ι = xr (a 3) (b 3) := by
  have h : res_main_v98 V0 ι = xr (res_main_v92 V0 ι) (res_main_v93 V0 ι) := rfl
  rw [h, v92_at, v93_at]

/-- The borrow leaving column 3. -/
theorem v114_at : res_main_v114 V0 ι = bw3 a b c := by
  have h : res_main_v114 V0 ι = bor (res_main_v92 V0 ι) (res_main_v93 V0 ι) (res_main_v91 V0 ι) := rfl
  rw [h, v92_at, v93_at, v91_at]; rfl

/-- Column 2's exclusive-or. -/
theorem v121_at : res_main_v121 V0 ι = xr (a 2) (b 2) := by
  have h : res_main_v121 V0 ι = xr (res_main_v115 V0 ι) (res_main_v116 V0 ι) := rfl
  rw [h, v115_at, v116_at]

/-- The borrow leaving column 2. -/
theorem v137_at : res_main_v137 V0 ι = bw2 a b c := by
  have h : res_main_v137 V0 ι = bor (res_main_v115 V0 ι) (res_main_v116 V0 ι) (res_main_v114 V0 ι) := rfl
  rw [h, v115_at, v116_at, v114_at]; rfl

/-- Column 1's exclusive-or. -/
theorem v144_at : res_main_v144 V0 ι = xr (a 1) (b 1) := by
  have h : res_main_v144 V0 ι = xr (res_main_v138 V0 ι) (res_main_v139 V0 ι) := rfl
  rw [h, v138_at, v139_at]

/-- The borrow leaving column 1. -/
theorem v160_at : res_main_v160 V0 ι = bw1 a b c := by
  have h : res_main_v160 V0 ι = bor (res_main_v138 V0 ι) (res_main_v139 V0 ι) (res_main_v137 V0 ι) := rfl
  rw [h, v138_at, v139_at, v137_at]; rfl

/-- Column 0's exclusive-or. -/
theorem v167_at : res_main_v167 V0 ι = xr (a 0) (b 0) := by
  have h : res_main_v167 V0 ι = xr (res_main_v161 V0 ι) (res_main_v162 V0 ι) := rfl
  rw [h, v161_at, v162_at]

/-- Column 0's inner "or", ((1 − a₀)·b₀) ∨ ((1 − a₀)·c₁) … -/
theorem v179_at : res_main_v179 V0 ι = orr ((one - a 0) * b 0) ((one - a 0) * bw1 a b c) := by
  have h : res_main_v179 V0 ι = orr ((one - res_main_v161 V0 ι) * res_main_v162 V0 ι) ((one - res_main_v161 V0 ι) * res_main_v160 V0 ι) := rfl
  rw [h, v161_at, v162_at, v160_at]

/-- … and its last product b₀·c₁. -/
theorem v180_at : res_main_v180 V0 ι = b 0 * bw1 a b c := by
  have h : res_main_v180 V0 ι = mulf (res_main_v162 V0) (res_main_v160 V0) ι := rfl
  rw [h, mulf_apply, v162_at, v160_at]

end Rows

/-! ## The two results -/

/-- The reference's first result, the concatenated difference columns, is the difference bits of every row. -/
theorem diffs_eq (V0 : Valuation τ sig (Elt Ideal)) :
    val4 V0 (Proc.devRef .tc main_v184) = diffsOf 8388608 (argA V0) (argB V0) (argC V0) := by
  rw [val4_main_v184]
  funext i
  obtain ⟨r, k, rfl⟩ : ∃ (r : Fin 8388608) (k : Fin 8), i = ix2 r k := ⟨i 0, i 1, eq_ix2 i⟩
  refine (concat8_apply 8388608 _ _ _ _ _ _ _ _ _ r k).trans ?_
  match k with
  | 0 => exact (xr_at _ _ _).trans (by rw [v167_at, v160_at]; rfl)
  | 1 => exact (xr_at _ _ _).trans (by rw [v144_at, v137_at]; rfl)
  | 2 => exact (xr_at _ _ _).trans (by rw [v121_at, v114_at]; rfl)
  | 3 => exact (xr_at _ _ _).trans (by rw [v98_at, v91_at]; rfl)
  | 4 => exact (xr_at _ _ _).trans (by rw [v75_at, v68_at]; rfl)
  | 5 => exact (xr_at _ _ _).trans (by rw [v52_at, v45_at]; rfl)
  | 6 => exact (xr_at _ _ _).trans (by rw [v29_at, v22_at]; rfl)
  | 7 => exact (xr_at _ _ _).trans (by rw [v6_at]; rfl)

/-- The reference's second result is the final borrow of every row. -/
theorem borrow_eq (V0 : Valuation τ sig (Elt Ideal)) :
    val4 V0 (Proc.devRef .tc main_v183) = borrowOf 8388608 (argA V0) (argB V0) (argC V0) := by
  rw [val4_main_v183]
  funext i
  obtain ⟨r, z, rfl⟩ : ∃ (r : Fin 8388608) (z : Fin 1), i = ix2 r z := ⟨i 0, i 1, eq_ix2 i⟩
  obtain rfl : z = 0 := Subsingleton.elim z 0
  have h : subf (addf (res_main_v179 V0) (res_main_v180 V0)) (mulf (res_main_v179 V0) (res_main_v180 V0)) (ix2 r (0 : Fin 1))
      = orr (res_main_v179 V0 (ix2 r (0 : Fin 1))) (res_main_v180 V0 (ix2 r (0 : Fin 1))) := rfl
  rw [h, v179_at, v180_at]; rfl

end Cert.ReferenceIdeal.RefValue

end
-- ==== Proof.lean ====
/-
  An 8-bit ripple-borrow subtractor on 0/1 "spike" values: a Pallas kernel against its jnp reference, over the extended
  reals.

  Both programs compute, for every row of A and B (eight bits, column 7 the least significant) and the row's incoming
  borrow, the eight difference bits and the final borrow of BitStage: with x ⊕ y = (x + y) − (2·x)·y and
  x ∨ y = (x + y) − x·y, column k's stage gives d = (a ⊕ b) ⊕ c and the borrow (((1 − a)·b) ∨ ((1 − a)·c)) ∨ (b·c) it hands to
  column k − 1. The reference does this on whole [N, 1] columns and concatenates the eight difference columns; the kernel
  does it on 512-row chunks inside 4096-row blocks, one block per grid point, and writes each block back over its rows.
  At an index the two programs apply the same operations to the same entries in the same order, so no law of arithmetic
  — and no use of the inputs being finite — is needed: the whole proof is bookkeeping of which entry each operation reads.

    ChunkValue   one chunk of the body, read at a row: every intermediate vector is one stage of the specification;
    BlockValue   the eight trips' stores are blocks of one function of the block's index, so the staging buffers hold it;
    KernelArray  point t writes back block t of one function of the arrays, and the 2048 blocks tile them;
    RefValue     the reference's named intermediate arrays, read at a row, are the same stages.

  The three frames are the generated ones (the reference's is its generated run with the results dropped); the ideal pass
  rewrote nothing, so the kernel's idealization has nothing to preserve.
-/
import proofs.«136779_j23407571764121_2_alg».proof.Defs
import proofs.«136779_j23407571764121_2_alg».proof.Proof.Gen.Kernel
import proofs.«136779_j23407571764121_2_alg».proof.Proof.Gen.Kernel.Frame
import proofs.«136779_j23407571764121_2_alg».proof.Proof.Gen.KernelIdeal
import proofs.«136779_j23407571764121_2_alg».proof.Proof.Gen.KernelIdeal.Frame
import proofs.«136779_j23407571764121_2_alg».proof.Proof.Gen.KernelIdeal.Value
import proofs.«136779_j23407571764121_2_alg».proof.Proof.Gen.ReferenceIdeal
import proofs.«136779_j23407571764121_2_alg».proof.Proof.Gen.ReferenceIdeal.Run
import proofs.«136779_j23407571764121_2_alg».proof.Proof.Gen.Pre_finite_inputs
import proofs.«136779_j23407571764121_2_alg».proof.Proof.KernelArray
import proofs.«136779_j23407571764121_2_alg».proof.Proof.RefValue
import Idealize.ShloMosaic.Adequacy
import Idealize.ShloMosaic.Init

noncomputable section

namespace Cert.Proof

open Idealize.ShloMosaic Idealize.ShloMosaic.StableHlo Idealize.SL.Sem Cert.Subtractor

/-- The kernel as printed runs and keeps its arguments. -/
theorem frame_p : Cert.frame_Kernel := fun m ρ _ => Cert.Kernel.Gen.frame m ρ

/-- Its idealization runs and keeps its arguments. -/
theorem frame_pi : Cert.frame_KernelIdeal := fun m ρ _ => Cert.KernelIdeal.Gen.frame m ρ

/-- The reference runs and keeps its arguments: its run, with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The ideal pass rewrote no operation. -/
theorem preserves : Cert.preserves_Kernel_KernelIdeal := trivial

/-- From memories agreeing on A, B and the incoming borrows, both programs end with the difference bits and the final
    borrow of every row: the kernel's arrays by `KernelArray`, the reference's by `RefValue`, of the same arguments. -/
theorem algebraic : Cert.algebraic_KernelIdeal_ReferenceIdeal := by
  intro m ρ m' ρ' _ hagree
  refine ⟨_, _, Cert.KernelIdeal.Whole.run m ρ, ?_⟩
  refine (θ_run Cert.ReferenceIdeal.defs _ _).mono (fun _ h c => ⟨?_, ?_, (h c).2.2⟩)
    (Cert.ReferenceIdeal.Value.run (F := Ideal) m' ρ')
  · refine (h c).1.trans (((Cert.ReferenceIdeal.Value.val4_main_v184 (launchContents m' c)).symm.trans
      (Cert.ReferenceIdeal.RefValue.diffs_eq (launchContents m' c))).trans ?_)
    show diffsOf 8388608 (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2)) = _
    rw [(hagree c).1, (hagree c).2.1, (hagree c).2.2]
  · refine (h c).2.1.trans (((Cert.ReferenceIdeal.Value.val4_main_v183 (launchContents m' c)).symm.trans
      (Cert.ReferenceIdeal.RefValue.borrow_eq (launchContents m' c))).trans ?_)
    show borrowOf 8388608 (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2)) = _
    rw [(hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
